-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S256x128 : Shape := ⟨2, ![256, 128]⟩
abbrev S1x128 : Shape := ⟨2, ![1, 128]⟩
abbrev S2000x128 : Shape := ⟨2, ![2000, 128]⟩
abbrev S2000x1 : Shape := ⟨2, ![2000, 1]⟩
abbrev S2000x256 : Shape := ⟨2, ![2000, 256]⟩
abbrev S128x1 : Shape := ⟨2, ![128, 1]⟩

abbrev nBuf : Space → Nat
  | .hbm => 89
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S256x128, .f32⟩
  | .hbm, ⟨44, _⟩ => ⟨S256x128, .bf16⟩
  | .hbm, ⟨45, _⟩ => ⟨S1x128, .f32⟩
  | .hbm, ⟨46, _⟩ => ⟨S50000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x128, .f32⟩
  | .hbm, ⟨62, _⟩ => ⟨S128x128, .f32⟩
  | .hbm, ⟨63, _⟩ => ⟨S256x128, .f32⟩
  | .hbm, ⟨64, _⟩ => ⟨S256x128, .bf16⟩
  | .hbm, ⟨65, _⟩ => ⟨S1x128, .f32⟩
  | .hbm, ⟨66, _⟩ => ⟨S50000x128, .bf16⟩
  | .hbm, ⟨67, _⟩ => ⟨S50000x128, .f32⟩
  | .hbm, ⟨68, _⟩ => ⟨S_, .f32⟩
  | .hbm, ⟨69, _⟩ => ⟨S128x128, .f32⟩
  | .hbm, ⟨70, _⟩ => ⟨S50000x1, .i32⟩
  | .hbm, ⟨71, _⟩ => ⟨S128x128, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S128, .f32⟩
  | .hbm, ⟨76, _⟩ => ⟨S50000x1, .i32⟩
  | .hbm, ⟨77, _⟩ => ⟨S128, .f32⟩
  | .hbm, ⟨78, _⟩ => ⟨S128x1, .f32⟩
  | .hbm, ⟨79, _⟩ => ⟨S_, .f32⟩
  | .hbm, ⟨80, _⟩ => ⟨S128x1, .f32⟩
  | .hbm, ⟨81, _⟩ => ⟨S128x1, .f32⟩
  | .hbm, ⟨82, _⟩ => ⟨S_, .f32⟩
  | .hbm, ⟨83, _⟩ => ⟨S128x1, .f32⟩
  | .hbm, ⟨84, _⟩ => ⟨S128x1, .f32⟩
  | .hbm, ⟨85, _⟩ => ⟨S128x128, .f32⟩
  | .hbm, ⟨86, _⟩ => ⟨S128x128, .bf16⟩
  | .hbm, ⟨87, _⟩ => ⟨S1x128, .f32⟩
  | .hbm, ⟨88, _⟩ => ⟨S128x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S256x128, .bf16⟩
  | .local _ .vmem, ⟨7, _⟩ => ⟨S1x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x128, .bf16⟩
  | .local _ .vmem, ⟨15, _⟩ => ⟨S2000x128, .bf16⟩
  | .local _ .vmem, ⟨16, _⟩ => ⟨S256x128, .bf16⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S128x128, .f32⟩
  | .local _ .vmem, ⟨21, _⟩ => ⟨S128x1, .f32⟩
  | .local _ .vmem, ⟨22, _⟩ => ⟨S128x128, .bf16⟩
  | .local _ .vmem, ⟨23, _⟩ => ⟨S1x128, .f32⟩
  | .local _ .vmem, ⟨24, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  concatenates_S128x128_S128x128_S256x128_d0 : Shape.Concatenates [S128x128, S128x128] S256x128 0
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v58) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S128x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x1 : Shape := ⟨2, ![128, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S128x128, .f32⟩
  | .hbm, ⟨89, _⟩ => ⟨S50000x1, .i32⟩
  | .hbm, ⟨90, _⟩ => ⟨S128x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S128, .f32⟩
  | .hbm, ⟨95, _⟩ => ⟨S50000x1, .i32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x128, .f32⟩
  | .hbm, ⟨102, _⟩ => ⟨S128x128, .f32⟩
  | .hbm, ⟨103, _⟩ => ⟨S128x128, .f32⟩
  | .hbm, ⟨104, _⟩ => ⟨S128x128, .f32⟩
  | .hbm, ⟨105, _⟩ => ⟨S1x128, .f32⟩
  | .hbm, ⟨106, _⟩ => ⟨S128x128, .f32⟩
  | .hbm, ⟨107, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.KernelRun.lean ====
/-
  The run of the idealized kernel program with its result named.

  The program is three kernel regions among three stretches of host operations. Its generated frame follows the
  contents of every buffer from one segment boundary to the next: after the last region every buffer the thread
  holds is at the last boundary's contents. The frame keeps of this only that the argument arrays are unchanged;
  the same run also says that the result buffer ends at the last boundary's contents, which is what is kept here.
-/
import proofs.«152667_j39977555591470_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the contents of the last segment
    boundary and the argument arrays as launched. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Out

end
-- ==== Proof.RefIdx.lean ====
/-
  Index arithmetic for reading the textbook program one entry at a time.

  Each product of an [M, 128] array by a [128, 128] array reads its left operand at (row of the result entry, k) and
  its right operand at (k, column of the result entry); each transpose reads at the swapped pair; a vector of length
  M spread along the rows of an [M, 128] array is read at the row; a vector of length 128 spread along the columns
  is read at the column. The generated module writes each of these index maps coordinate by coordinate; here each
  is identified with the index built from its coordinates.
-/
import proofs.«152667_j39977555591470_2_alg».proof.Proof.Gen.ReferenceIdeal.Read

namespace Cert.RefValue

open Cert.ReferenceIdeal Cert.ReferenceIdeal.Read Idealize.ShloMosaic Idealize.ShloMosaic.ValueIdx

theorem lidx24 (i : S50000x128.Idx) (k : Fin 128) : lidx_main_v24 i k = ix2 (i 0) k :=
  funext fun a => Fin.ext (by match a with | ⟨0, _⟩ => rfl | ⟨1, _⟩ => rfl)
theorem ridx24 (i : S50000x128.Idx) (k : Fin 128) : ridx_main_v24 i k = ix2 k (i 1) :=
  funext fun a => Fin.ext (by match a with | ⟨0, _⟩ => rfl | ⟨1, _⟩ => rfl)
theorem lidx29 (i : S50000x128.Idx) (k : Fin 128) : lidx_main_v29 i k = ix2 (i 0) k :=
  funext fun a => Fin.ext (by match a with | ⟨0, _⟩ => rfl | ⟨1, _⟩ => rfl)
theorem ridx29 (i : S50000x128.Idx) (k : Fin 128) : ridx_main_v29 i k = ix2 k (i 1) :=
  funext fun a => Fin.ext (by match a with | ⟨0, _⟩ => rfl | ⟨1, _⟩ => rfl)
theorem lidx52 (i : S50000x128.Idx) (k : Fin 128) : lidx_main_v52 i k = ix2 (i 0) k :=
  funext fun a => Fin.ext (by match a with | ⟨0, _⟩ => rfl | ⟨1, _⟩ => rfl)
theorem ridx52 (i : S50000x128.Idx) (k : Fin 128) : ridx_main_v52 i k = ix2 k (i 1) :=
  funext fun a => Fin.ext (by match a with | ⟨0, _⟩ => rfl | ⟨1, _⟩ => rfl)
theorem lidx57 (i : S50000x128.Idx) (k : Fin 128) : lidx_main_v57 i k = ix2 (i 0) k :=
  funext fun a => Fin.ext (by match a with | ⟨0, _⟩ => rfl | ⟨1, _⟩ => rfl)
theorem ridx57 (i : S50000x128.Idx) (k : Fin 128) : ridx_main_v57 i k = ix2 k (i 1) :=
  funext fun a => Fin.ext (by match a with | ⟨0, _⟩ => rfl | ⟨1, _⟩ => rfl)
theorem lidx73 (i : S128x128.Idx) (k : Fin 128) : lidx_main_v73 i k = ix2 (i 0) k :=
  funext fun a => Fin.ext (by match a with | ⟨0, _⟩ => rfl | ⟨1, _⟩ => rfl)
theorem ridx73 (i : S128x128.Idx) (k : Fin 128) : ridx_main_v73 i k = ix2 k (i 1) :=
  funext fun a => Fin.ext (by match a with | ⟨0, _⟩ => rfl | ⟨1, _⟩ => rfl)
theorem tidx23 (j : S128x128.Idx) : idx_main_v23 j = ix2 (j 1) (j 0) :=
  funext fun a => Fin.ext (by match a with | ⟨0, _⟩ => rfl | ⟨1, _⟩ => rfl)
theorem tidx28 (j : S128x128.Idx) : idx_main_v28 j = ix2 (j 1) (j 0) :=
  funext fun a => Fin.ext (by match a with | ⟨0, _⟩ => rfl | ⟨1, _⟩ => rfl)
theorem tidx51 (j : S128x128.Idx) : idx_main_v51 j = ix2 (j 1) (j 0) :=
  funext fun a => Fin.ext (by match a with | ⟨0, _⟩ => rfl | ⟨1, _⟩ => rfl)
theorem tidx56 (j : S128x128.Idx) : idx_main_v56 j = ix2 (j 1) (j 0) :=
  funext fun a => Fin.ext (by match a with | ⟨0, _⟩ => rfl | ⟨1, _⟩ => rfl)
theorem tidx72 (j : S128x128.Idx) : idx_main_v72 j = ix2 (j 1) (j 0) :=
  funext fun a => Fin.ext (by match a with | ⟨0, _⟩ => rfl | ⟨1, _⟩ => rfl)
theorem rowidx21 (j : S50000x128.Idx) : idx_main_v20 (idx_main_v21 j) = ix1 (j 0) :=
  funext fun a => Fin.ext (by match a with | ⟨0, _⟩ => rfl)
theorem rowidx49 (j : S50000x128.Idx) : idx_main_v48 (idx_main_v49 j) = ix1 (j 0) :=
  funext fun a => Fin.ext (by match a with | ⟨0, _⟩ => rfl)
theorem rowidx70 (j : S128x128.Idx) : idx_main_v69 (idx_main_v70 j) = ix1 (j 0) :=
  funext fun a => Fin.ext (by match a with | ⟨0, _⟩ => rfl)
theorem colidx26 (i : S50000x128.Idx) : idx_main_v25 (idx_main_v26 i) = ix1 (i 1) :=
  funext fun a => Fin.ext (by match a with | ⟨0, _⟩ => rfl)
theorem colidx54 (i : S50000x128.Idx) : idx_main_v53 (idx_main_v54 i) = ix1 (i 1) :=
  funext fun a => Fin.ext (by match a with | ⟨0, _⟩ => rfl)
theorem colidx75 (i : S128x128.Idx) : idx_main_v74 (idx_main_v75 i) = ix1 (i 1) :=
  funext fun a => Fin.ext (by match a with | ⟨0, _⟩ => rfl)

end Cert.RefValue
-- ==== Proof.LibPlainDot.lean ====
/-
  A product of an [M, K] array by a [K, N] array, with the dimension numbers "contract the left operand's second
  axis against the right operand's first, no batch axis", read at one entry of the result.

  On the extended reals both the vector unit's product into a zero accumulator and the host's dot product are, at the
  entry (r, c), the sum over the contracted coordinate k of a(r, k) · b(k, c). The two operations index their operands
  through the dimension numbers' own index maps and sum over the contraction's index set; here that sum is carried over
  to a sum over k : Fin K, and the operand indices are written out by coordinates. Nothing about the sizes is used.
-/
import Idealize.ShloMosaic.PureOps.Ideal.Laws
import Idealize.ShloMosaic.Lib.ValueIdx

noncomputable section

namespace Cert.PlainDot

open Idealize.ShloMosaic Idealize.ShloMosaic.ValueIdx

/-- The product of an [M, K] array and a [K, N] array of extended reals: entry (r, c) is the sum over k of
    a(r, k) · b(k, c). -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem mm_apply {M K N : Nat} (a : (⟨2, ![M, K]⟩ : Shape).Idx → EReal) (b : (⟨2, ![K, N]⟩ : Shape).Idx → EReal)
    (i : (⟨2, ![M, N]⟩ : Shape).Idx) : mm a b i = ∑ k : Fin K, a (ix2 (i 0) k) * b (ix2 k (i 1)) := rfl

/-- The left operand's index at result entry `j` and contracted coordinate `k` is (row of `j`, `k`). -/
theorem lhs_plain {M K N : Nat} (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index at result entry `j` and contracted coordinate `k` is (`k`, column of `j`). -/
theorem rhs_plain {M K N : Nat} (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The sum over the contraction's index set is the sum over the contracted coordinate. -/
theorem sum_plain {M K N : Nat} (a : (⟨2, ![M, K]⟩ : Shape).Idx → EReal) (b : (⟨2, ![K, N]⟩ : Shape).Idx → EReal)
    (j : (⟨2, ![M, N]⟩ : Shape).Idx) :
    ∑ q : (DotDims.plain M K N).contr.Idx, a ((DotDims.plain M K N).lhsIdx j q) * b ((DotDims.plain M K N).rhsIdx j q)
      = mm a b j := by
  rw [← Equiv.sum_comp (contrEquiv1 (DotDims.plain M K N) K rfl rfl).symm]
  exact Finset.sum_congr rfl fun k _ => congrArg₂ (· * ·) (congrArg a (lhs_plain j k)) (congrArg b (rhs_plain j k))

/-- The vector unit's product into a zero accumulator, whatever the operands' formats, is `mm`. -/
theorem matmul_zero {M K N : Nat} {φ₁ φ₂ : FTy} (prec : Option ContractPrecision)
    (a : FVec Ideal ⟨2, ![M, K]⟩ φ₁) (b : FVec Ideal ⟨2, ![K, N]⟩ φ₂) :
    (matmul (DotDims.plain M K N) prec a b (constant (F := Ideal) ⟨2, ![M, N]⟩ .f32 0x00000000#32) : FVec Ideal ⟨2, ![M, N]⟩ .f32)
      = mm a b :=
  funext fun j => (Ideal.matmul_constant_zero_apply (DotDims.plain M K N) prec a b j).trans (sum_plain a b j)

/-- The host's dot product is `mm`. -/
theorem hostDot {M K N : Nat} {φ₁ φ₂ : FTy} (prec : Option ContractPrecision)
    (a : FVec Ideal ⟨2, ![M, K]⟩ φ₁) (b : FVec Ideal ⟨2, ![K, N]⟩ φ₂) :
    (Host.dotGeneral (F := Ideal) (DotDims.plain M K N) prec a b : FVec Ideal ⟨2, ![M, N]⟩ .f32) = mm a b :=
  funext fun j => by
    simp only [Host.dotGeneral]
    exact (Ideal.dotGeneral_apply (DotDims.plain M K N) prec _ a b j).trans (sum_plain a b j)

end Cert.PlainDot

end
-- ==== Proof.LibRowBlocks.lean ====
/-
  Row blocks of arrays of extended reals, and three layer operations that commute with taking a row block.

  `RowBlock A Ab off` says the [Mb, N] array `Ab` is rows `off, off + 1, …` of the [M, N] array `A`, stated
  through indices' coordinate values so that the two index types never have to be converted into one another.
  An entry of a product depends on one row of its left operand only, so the rows `off …` of `A · B` are
  `Ab · B`; adding a bias row and clamping below at a constant act entry by entry, so they commute with taking
  rows as well. No algebraic law of the extended reals is used: each statement matches the two sides term by term.
-/
import proofs.«152667_j39977555591470_2_alg».proof.Proof.LibPlainDot
import Idealize.ShloMosaic.Lib.Pipeline.Value

noncomputable section

namespace Cert.PlainDot

open Idealize.ShloMosaic Idealize.ShloMosaic.ValueIdx

/-- `Ab` is rows `off, off + 1, …` of `A`. -/
def RowBlock {M Mb N : Nat} (A : (⟨2, ![M, N]⟩ : Shape).Idx → EReal) (Ab : (⟨2, ![Mb, N]⟩ : Shape).Idx → EReal) (off : Nat) : Prop :=
  ∀ (z : (⟨2, ![Mb, N]⟩ : Shape).Idx) (i : (⟨2, ![M, N]⟩ : Shape).Idx),
    (i 0).val = off + (z 0).val → (i 1).val = (z 1).val → Ab z = A i

/-- A product with a bias row added: entry (r, c) is (A · S)(r, c) + R(0, c). -/
def affine {M K N : Nat} (A : (⟨2, ![M, K]⟩ : Shape).Idx → EReal) (S : (⟨2, ![K, N]⟩ : Shape).Idx → EReal)
    (R : (⟨2, ![1, N]⟩ : Shape).Idx → EReal) : (⟨2, ![M, N]⟩ : Shape).Idx → EReal :=
  fun i => mm A S i + R (ix2 (0 : Fin 1) (i 1))

/-- Clamping below at `z`, entry by entry. -/
def clampBelow {M N : Nat} (z : EReal) (V : (⟨2, ![M, N]⟩ : Shape).Idx → EReal) : (⟨2, ![M, N]⟩ : Shape).Idx → EReal :=
  fun i => max (V i) z

/-- Rows `off …` of `A · B` are (rows `off …` of `A`) · `B`. -/
theorem mm_rowBlock {M Mb K N : Nat} {A : (⟨2, ![M, K]⟩ : Shape).Idx → EReal} {Ab : (⟨2, ![Mb, K]⟩ : Shape).Idx → EReal}
    {B Bb : (⟨2, ![K, N]⟩ : Shape).Idx → EReal} {off : Nat} (hA : RowBlock A Ab off) (hB : ∀ z, Bb z = B z) :
    RowBlock (mm A B) (mm Ab Bb) off := by
  intro z i h0 h1
  have e : (z 1 : Fin N) = i 1 := Fin.ext h1.symm
  show ∑ k : Fin K, Ab (ix2 (z 0) k) * Bb (ix2 k (z 1)) = ∑ k : Fin K, A (ix2 (i 0) k) * B (ix2 k (i 1))
  refine Finset.sum_congr rfl fun k _ => ?_
  rw [hA (ix2 (z 0) k) (ix2 (i 0) k) h0 rfl, hB, e]

/-- Rows `off …` of `A · S + R` are (rows `off …` of `A`) · `S` + `R`. -/
theorem affine_rowBlock {M Mb K N : Nat} {A : (⟨2, ![M, K]⟩ : Shape).Idx → EReal} {Ab : (⟨2, ![Mb, K]⟩ : Shape).Idx → EReal}
    {S Sb : (⟨2, ![K, N]⟩ : Shape).Idx → EReal} {R Rb : (⟨2, ![1, N]⟩ : Shape).Idx → EReal} {off : Nat}
    (hA : RowBlock A Ab off) (hS : ∀ z, Sb z = S z) (hR : ∀ z, Rb z = R z) :
    RowBlock (affine A S R) (affine Ab Sb Rb) off := by
  intro z i h0 h1
  have e : (z 1 : Fin N) = i 1 := Fin.ext h1.symm
  show mm Ab Sb z + Rb (ix2 (0 : Fin 1) (z 1)) = mm A S i + R (ix2 (0 : Fin 1) (i 1))
  rw [mm_rowBlock hA hS z i h0 h1, hR, e]

/-- Clamping commutes with taking rows. -/
theorem clampBelow_rowBlock {M Mb N : Nat} {V : (⟨2, ![M, N]⟩ : Shape).Idx → EReal} {Vb : (⟨2, ![Mb, N]⟩ : Shape).Idx → EReal}
    {off : Nat} (z₀ : EReal) (hV : RowBlock V Vb off) : RowBlock (clampBelow z₀ V) (clampBelow z₀ Vb) off := by
  intro z i h0 h1
  show max (Vb z) z₀ = max (V i) z₀
  rw [hV z i h0 h1]

/-- A [1, N] row broadcast down the rows of an [Mb, N] block reads, at (r, c), the row's entry c. -/
theorem broadcastTo_row {Mb N : Nat} (hN : N ≠ 1) (b : (⟨2, ![1, N]⟩ : Shape).Idx → EReal)
    (h : (⟨2, ![1, N]⟩ : Shape).Broadcasts ⟨2, ![Mb, N]⟩) (j : (⟨2, ![Mb, N]⟩ : Shape).Idx) :
    broadcastTo ⟨2, ![Mb, N]⟩ b h j = b (ix2 (0 : Fin 1) (j 1)) :=
  broadcastTo_apply b h j (ix2 (0 : Fin 1) (j 1)) fun a => match a with
    | ⟨0, _⟩ => by show (0 : Nat) = if (1 : Nat) = 1 then 0 else _; rw [if_pos rfl]
    | ⟨1, _⟩ => by show (j 1).val = if N = 1 then 0 else (j 1).val; rw [if_neg hN]

/-- The extended real the all-zero 32-bit word denotes, kept as the word: both programs clamp at this same word, so
    it is never evaluated. -/
abbrev zeroWord : EReal := Ideal.ofBits .f32 0x00000000#32

end Cert.PlainDot

end
-- ==== Proof.Spec.lean ====
/-
  The mathematics of a two-layer mean-aggregation graph network with a mean pool and a linear classifier, on the
  extended reals, in the two arrangements the two programs compute it in, and the law that joins them.

  One layer takes the neighbour sums `agg` (an [n, 128] array), the neighbour counts clamped below at one `deg`
  (length n), the node features `root`, two [128, 128] weight matrices `wl`, `wr` and a bias `b`, and returns
        max ( (agg / deg) · wlᵀ + b + root · wrᵀ , 0 ).
  One program computes it in that order. The other multiplies `agg` by the reciprocals `1 / deg`, puts the result
  and `root` side by side as one [n, 256] array, multiplies once by the [256, 128] array that stacks `wlᵀ` on `wrᵀ`,
  then adds the bias. A sum over 256 = 128 + 128 products splits into the two sums over 128; a quotient by a
  nonzero extended real is the product with its reciprocal; and the three summands are reassociated. Addition of
  extended reals is commutative and associative, so nothing has to be finite.
  The classifier is the same without the second product and without the clamp.
-/
import proofs.«152667_j39977555591470_2_alg».proof.Proof.LibRowBlocks
import Idealize.ShloMosaic.Lib.IdealHost

noncomputable section

namespace Cert.Sage

open Idealize.ShloMosaic Idealize.ShloMosaic.ValueIdx Cert.PlainDot

/-- The extended real the 32-bit word of `1.0` denotes. -/
abbrev oneWord : EReal := Ideal.ofBits .f32 0x3F800000#32

/-- The transpose of a square array. -/
def tr (w : (⟨2, ![128, 128]⟩ : Shape).Idx → EReal) : (⟨2, ![128, 128]⟩ : Shape).Idx → EReal :=
  fun j => w (ix2 (j 1) (j 0))

/-- Every row `r` of `a` multiplied by the one entry of row `r` of the column `s`. -/
def scaleRows {M N : Nat} (a : (⟨2, ![M, N]⟩ : Shape).Idx → EReal) (s : (⟨2, ![M, 1]⟩ : Shape).Idx → EReal) :
    (⟨2, ![M, N]⟩ : Shape).Idx → EReal :=
  fun i => a i * s (ix2 (i 0) (0 : Fin 1))

/-- Two [M, 128] arrays side by side: columns 0 … 127 are `a`'s, columns 128 … 255 are `b`'s. -/
def catCols {M : Nat} (a b : (⟨2, ![M, 128]⟩ : Shape).Idx → EReal) : (⟨2, ![M, 256]⟩ : Shape).Idx → EReal :=
  fun i => if h : (i 1).val < 128 then a (ix2 (i 0) ⟨(i 1).val, h⟩)
    else b (ix2 (i 0) ⟨(i 1).val - 128, by have h2 : (i 1).val < 256 := (i 1).isLt; omega⟩)

/-- Two [128, 128] arrays stacked: rows 0 … 127 are `a`'s, rows 128 … 255 are `b`'s. -/
def catRows (a b : (⟨2, ![128, 128]⟩ : Shape).Idx → EReal) : (⟨2, ![256, 128]⟩ : Shape).Idx → EReal :=
  fun i => if h : (i 0).val < 128 then a (ix2 ⟨(i 0).val, h⟩ (i 1))
    else b (ix2 ⟨(i 0).val - 128, by have h2 : (i 0).val < 256 := (i 0).isLt; omega⟩ (i 1))

/-- One layer in the side-by-side arrangement: `max ([agg · invd | root] · wcat + brow, 0)`. -/
def layerK {M : Nat} (agg : (⟨2, ![M, 128]⟩ : Shape).Idx → EReal) (invd : (⟨2, ![M, 1]⟩ : Shape).Idx → EReal)
    (root : (⟨2, ![M, 128]⟩ : Shape).Idx → EReal) (wcat : (⟨2, ![256, 128]⟩ : Shape).Idx → EReal)
    (brow : (⟨2, ![1, 128]⟩ : Shape).Idx → EReal) : (⟨2, ![M, 128]⟩ : Shape).Idx → EReal :=
  clampBelow zeroWord (affine (catCols (scaleRows agg invd) root) wcat brow)

/-- One layer in the textbook arrangement: `max ((agg / deg) · wlᵀ + b + root · wrᵀ, 0)`. -/
def layerR (agg : (⟨2, ![50000, 128]⟩ : Shape).Idx → EReal) (deg : (⟨1, ![50000]⟩ : Shape).Idx → EReal)
    (root : (⟨2, ![50000, 128]⟩ : Shape).Idx → EReal) (wl : (⟨2, ![128, 128]⟩ : Shape).Idx → EReal)
    (b : (⟨1, ![128]⟩ : Shape).Idx → EReal) (wr : (⟨2, ![128, 128]⟩ : Shape).Idx → EReal) :
    (⟨2, ![50000, 128]⟩ : Shape).Idx → EReal :=
  fun i => max ((mm (fun j => Ideal.div (agg j) (deg (ix1 (j 0)))) (tr wl) i + b (ix1 (i 1))) + mm root (tr wr) i) zeroWord

/-- The classifier on the pooled sums, reciprocal arrangement: `(gsum · ginv) · cwt + cbrow`. -/
def poolK (gsum : (⟨2, ![128, 128]⟩ : Shape).Idx → EReal) (ginv : (⟨2, ![128, 1]⟩ : Shape).Idx → EReal)
    (cwt : (⟨2, ![128, 128]⟩ : Shape).Idx → EReal) (cbrow : (⟨2, ![1, 128]⟩ : Shape).Idx → EReal) :
    (⟨2, ![128, 128]⟩ : Shape).Idx → EReal :=
  affine (scaleRows gsum ginv) cwt cbrow

/-- The classifier on the pooled sums, textbook arrangement: `(gsum / gcnt) · cwᵀ + cb`. -/
def poolR (gsum : (⟨2, ![128, 128]⟩ : Shape).Idx → EReal) (gcnt : (⟨1, ![128]⟩ : Shape).Idx → EReal)
    (cw : (⟨2, ![128, 128]⟩ : Shape).Idx → EReal) (cb : (⟨1, ![128]⟩ : Shape).Idx → EReal) :
    (⟨2, ![128, 128]⟩ : Shape).Idx → EReal :=
  fun i => mm (fun j => Ideal.div (gsum j) (gcnt (ix1 (j 0)))) (tr cw) i + cb (ix1 (i 1))

/-! ## The law -/

/-- Multiplying by the reciprocal `1 / d` is dividing by `d`, for every nonzero extended real `d`. -/
theorem mul_recip (a d : EReal) (hd : d ≠ 0) : a * Ideal.div oneWord d = Ideal.div a d := by
  unfold Ideal.div
  rw [if_neg hd, if_neg hd]
  show a * (Ideal.ofBits .f32 0x3F800000#32 * d⁻¹) = a * d⁻¹
  rw [Ideal.ofBits_one_f32, one_mul]

/-- A product of a side-by-side array with a stacked array is the sum of the two products. -/
theorem mm_cat {M : Nat} (a b : (⟨2, ![M, 128]⟩ : Shape).Idx → EReal) (c d : (⟨2, ![128, 128]⟩ : Shape).Idx → EReal)
    (i : (⟨2, ![M, 128]⟩ : Shape).Idx) : mm (catCols a b) (catRows c d) i = mm a c i + mm b d i := by
  show ∑ k : Fin (128 + 128), catCols a b (ix2 (i 0) k) * catRows c d (ix2 k (i 1))
      = ∑ k : Fin 128, a (ix2 (i 0) k) * c (ix2 k (i 1)) + ∑ k : Fin 128, b (ix2 (i 0) k) * d (ix2 k (i 1))
  rw [Fin.sum_univ_add]
  congr 1

/-- The two arrangements of a layer agree, when no count is zero, `invd` holds the reciprocals of the counts,
    `wcat` stacks the two transposed weight matrices and `brow` is the bias as a row. -/
theorem layerK_eq_layerR (agg : (⟨2, ![50000, 128]⟩ : Shape).Idx → EReal) (deg : (⟨1, ![50000]⟩ : Shape).Idx → EReal)
    (root : (⟨2, ![50000, 128]⟩ : Shape).Idx → EReal) (wl : (⟨2, ![128, 128]⟩ : Shape).Idx → EReal)
    (b : (⟨1, ![128]⟩ : Shape).Idx → EReal) (wr : (⟨2, ![128, 128]⟩ : Shape).Idx → EReal)
    (invd : (⟨2, ![50000, 1]⟩ : Shape).Idx → EReal) (wcat : (⟨2, ![256, 128]⟩ : Shape).Idx → EReal)
    (brow : (⟨2, ![1, 128]⟩ : Shape).Idx → EReal)
    (hdeg : ∀ r, deg r ≠ 0) (hinvd : ∀ j, invd j = Ideal.div oneWord (deg (ix1 (j 0))))
    (hwcat : wcat = catRows (tr wl) (tr wr)) (hbrow : ∀ j, brow j = b (ix1 (j 1))) :
    layerK agg invd root wcat brow = layerR agg deg root wl b wr := by
  funext i
  show max (mm (catCols (scaleRows agg invd) root) wcat i + brow (ix2 (0 : Fin 1) (i 1))) zeroWord = _
  rw [hwcat, mm_cat, hbrow]
  have hs : scaleRows agg invd = fun j => Ideal.div (agg j) (deg (ix1 (j 0))) := funext fun j => by
    show agg j * invd (ix2 (j 0) (0 : Fin 1)) = _
    rw [hinvd]
    exact mul_recip _ _ (hdeg _)
  rw [hs]
  unfold layerR
  rw [add_right_comm]

/-- The two arrangements of the classifier agree, under the same hypotheses. -/
theorem poolK_eq_poolR (gsum : (⟨2, ![128, 128]⟩ : Shape).Idx → EReal) (gcnt : (⟨1, ![128]⟩ : Shape).Idx → EReal)
    (cw : (⟨2, ![128, 128]⟩ : Shape).Idx → EReal) (cb : (⟨1, ![128]⟩ : Shape).Idx → EReal)
    (ginv : (⟨2, ![128, 1]⟩ : Shape).Idx → EReal) (cwt : (⟨2, ![128, 128]⟩ : Shape).Idx → EReal)
    (cbrow : (⟨2, ![1, 128]⟩ : Shape).Idx → EReal)
    (hcnt : ∀ r, gcnt r ≠ 0) (hginv : ∀ j, ginv j = Ideal.div oneWord (gcnt (ix1 (j 0))))
    (hcwt : cwt = tr cw) (hcbrow : ∀ j, cbrow j = cb (ix1 (j 1))) :
    poolK gsum ginv cwt cbrow = poolR gsum gcnt cw cb := by
  funext i
  show mm (scaleRows gsum ginv) cwt i + cbrow (ix2 (0 : Fin 1) (i 1)) = _
  have hs : scaleRows gsum ginv = fun j => Ideal.div (gsum j) (gcnt (ix1 (j 0))) := funext fun j => by
    show gsum j * ginv (ix2 (j 0) (0 : Fin 1)) = _
    rw [hginv]
    exact mul_recip _ _ (hcnt _)
  rw [hs, hcwt, hcbrow]
  rfl

end Cert.Sage

end
-- ==== Proof.RefValue.lean ====
/-
  The textbook program's result as a closed expression.

  The program is two mean-aggregation layers, a mean pool over graphs and a linear classifier. Its four
  data-dependent accumulations are kept as unopened terms: the sum of the neighbours' feature rows at each node
  (`aggR`), the number of incoming edges of each node clamped below at one (`degR`), the sum of the node rows
  of each graph (`gsumR`), and the number of nodes of each graph clamped below at one (`gcntR`). Every other
  operation is read at an entry: a product is a sum over the contracted coordinate, a transpose swaps the
  coordinates, a spread vector is read at its one coordinate, and the elementwise operations are the extended
  reals' own. Read this way, each layer is
        max ( (agg / deg) · wlᵀ + b + root · wrᵀ , 0 )
  with `agg`, `deg` the accumulations over the layer's input `root`, and the classifier is
        (gsum / gcnt) · cwᵀ + cb.
  The two clamped counts are at least one, hence nonzero.
-/
import proofs.«152667_j39977555591470_2_alg».proof.Proof.RefIdx
import proofs.«152667_j39977555591470_2_alg».proof.Proof.Spec

noncomputable section

namespace Cert.RefValue

open Cert.ReferenceIdeal Cert.ReferenceIdeal.Read Idealize.ShloMosaic Idealize.ShloMosaic.TcCoe Idealize.SL.Sem
  Idealize.ShloMosaic.StableHlo Idealize.ShloMosaic.ValueIdx Cert.PlainDot Cert.Sage

/-! ## A layer and the classifier, assembled from entrywise reads -/

/-- If `D` holds the quotients `agg / deg` and `Wl`, `Wr` the transposes of `wl`, `wr`, then the sum over k of
    D(r, k) · Wl(k, c), plus b(c), plus the sum over k of root(r, k) · Wr(k, c), clamped below at zero, is the layer. -/
theorem layer_of_reads (agg : (⟨2, ![50000, 128]⟩ : Shape).Idx → EReal) (deg : (⟨1, ![50000]⟩ : Shape).Idx → EReal) (root : (⟨2, ![50000, 128]⟩ : Shape).Idx → EReal) (wl : (⟨2, ![128, 128]⟩ : Shape).Idx → EReal) (b : (⟨1, ![128]⟩ : Shape).Idx → EReal) (wr : (⟨2, ![128, 128]⟩ : Shape).Idx → EReal)
    (D : (⟨2, ![50000, 128]⟩ : Shape).Idx → EReal) (Wl Wr : (⟨2, ![128, 128]⟩ : Shape).Idx → EReal)
    (hD : ∀ j, D j = Ideal.div (agg j) (deg (ix1 (j 0)))) (hWl : ∀ j, Wl j = tr wl j) (hWr : ∀ j, Wr j = tr wr j)
    (i : (⟨2, ![50000, 128]⟩ : Shape).Idx) :
    max (((∑ k : Fin 128, D (ix2 (i 0) k) * Wl (ix2 k (i 1))) + b (ix1 (i 1)))
        + ∑ k : Fin 128, root (ix2 (i 0) k) * Wr (ix2 k (i 1))) zeroWord
      = layerR agg deg root wl b wr i := by
  obtain rfl : D = fun j => Ideal.div (agg j) (deg (ix1 (j 0))) := funext hD
  obtain rfl : Wl = tr wl := funext hWl
  obtain rfl : Wr = tr wr := funext hWr
  rfl

/-- If `D` holds the quotients `gsum / gcnt` and `W` the transpose of `cw`, then the sum over k of
    D(r, k) · W(k, c), plus cb(c), is the classifier. -/
theorem pool_of_reads (gsum : (⟨2, ![128, 128]⟩ : Shape).Idx → EReal) (gcnt : (⟨1, ![128]⟩ : Shape).Idx → EReal) (cw : (⟨2, ![128, 128]⟩ : Shape).Idx → EReal) (cb : (⟨1, ![128]⟩ : Shape).Idx → EReal) (D W : (⟨2, ![128, 128]⟩ : Shape).Idx → EReal)
    (hD : ∀ j, D j = Ideal.div (gsum j) (gcnt (ix1 (j 0)))) (hW : ∀ j, W j = tr cw j)
    (i : (⟨2, ![128, 128]⟩ : Shape).Idx) :
    (∑ k : Fin 128, D (ix2 (i 0) k) * W (ix2 k (i 1))) + cb (ix1 (i 1)) = poolR gsum gcnt cw cb i := by
  obtain rfl : D = fun j => Ideal.div (gsum j) (gcnt (ix1 (j 0))) := funext hD
  obtain rfl : W = tr cw := funext hW
  rfl

/-! ## The four accumulations -/

/-- The sum, at each node, of the rows of `h` at the sources of the node's incoming edges. -/
def aggR (e : (⟨S2x800000, .i32⟩ : BufTy).Contents (Elt Ideal)) (h : (⟨S50000x128, .f32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v11 (F := Ideal))
    (val_main_v12 (F := Ideal) e)
    (Host.gather gather_S50000x128_S800000x1_S800000x128_1_0_n_n_0_1_1128 h (val_main_v9 (F := Ideal) e))

/-- The number of incoming edges of each node, clamped below at one. -/
def degR (e : (⟨S2x800000, .i32⟩ : BufTy).Contents (Elt Ideal)) : (⟨S50000, .f32⟩ : BufTy).Contents (Elt Ideal) :=
  val_main_v19 (F := Ideal) e

/-- The sum, for each graph, of the rows of `h` at the graph's nodes. -/
def gsumR (bt : (⟨S50000, .i32⟩ : BufTy).Contents (Elt Ideal)) (h : (⟨S50000x128, .f32⟩ : BufTy).Contents (Elt Ideal)) : (⟨S128x128, .f32⟩ : BufTy).Contents (Elt Ideal) :=
  Host.scatterAdd (F := Ideal) (φ := .f32) scatter_S128x128_S50000x1_S50000x128_1_0_0_1 (val_main_v60 (F := Ideal))
    (val_main_v61 (F := Ideal) bt) h

/-- The number of nodes of each graph, clamped below at one. -/
def gcntR (bt : (⟨S50000, .i32⟩ : BufTy).Contents (Elt Ideal)) : (⟨S128, .f32⟩ : BufTy).Contents (Elt Ideal) :=
  val_main_v68 (F := Ideal) bt

/-- The first layer's neighbour sums are the accumulation over the input features. -/
theorem agg1_eq (x0 : (⟨S50000x128, .f32⟩ : BufTy).Contents (Elt Ideal)) (x1 : (⟨S2x800000, .i32⟩ : BufTy).Contents (Elt Ideal)) : val_main_v13 (F := Ideal) x0 x1 = aggR x1 x0 := rfl

/-- The second layer's neighbour sums are the same accumulation over the first layer's output. -/
theorem agg2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v41 (F := Ideal) x0 x1 x3 x4 x5 = aggR x1 (val_main_v31 (F := Ideal) x0 x1 x3 x4 x5) := rfl

/-- The first layer's clamped counts. -/
theorem deg1_eq (x1 : (⟨S2x800000, .i32⟩ : BufTy).Contents (Elt Ideal)) : val_main_v19 (F := Ideal) x1 = degR x1 := rfl

/-- The second layer computes the same clamped counts again. -/
theorem deg2_eq (x1 : (⟨S2x800000, .i32⟩ : BufTy).Contents (Elt Ideal)) : val_main_v47 (F := Ideal) x1 = degR x1 := rfl

/-- The pooled sums are the accumulation over the second layer's output. -/
theorem gsum_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x2 : (⟨S50000, .i32⟩ : BufTy).Contents (Elt Ideal)) :
    val_main_v62 (F := Ideal) x0 x1 x2 x3 x4 x5 x6 x7 x8 = gsumR x2 (val_main_v59 (F := Ideal) x0 x1 x3 x4 x5 x6 x7 x8) := rfl

/-- The pool's clamped counts. -/
theorem gcnt_eq (x2 : (⟨S50000, .i32⟩ : BufTy).Contents (Elt Ideal)) : val_main_v68 (F := Ideal) x2 = gcntR x2 := rfl

/-! ## The clamped counts are nonzero -/

/-- A maximum with one is at least one, so it is not zero. -/
theorem max_one_ne_zero (a : EReal) : max a (Ideal.ofBits .f32 0x3F800000#32) ≠ 0 := by
  rw [Ideal.ofBits_one_f32]
  exact ne_of_gt (lt_of_lt_of_le zero_lt_one (le_max_right _ _))

theorem degR_ne_zero (e : (⟨S2x800000, .i32⟩ : BufTy).Contents (Elt Ideal)) (r : S50000.Idx) : degR e r ≠ 0 := by
  unfold degR
  rw [val_main_v19_apply, val_main_v18_apply, val_main_cst_3_apply, Ideal.maximumf_def, Ideal.ofBits_def]
  exact max_one_ne_zero _

theorem gcntR_ne_zero (bt : (⟨S50000, .i32⟩ : BufTy).Contents (Elt Ideal)) (r : S128.Idx) : gcntR bt r ≠ 0 := by
  unfold gcntR
  rw [val_main_v68_apply, val_main_v67_apply, val_main_cst_13_apply, Ideal.maximumf_def, Ideal.ofBits_def]
  exact max_one_ne_zero _

/-! ## The first layer, on the input features -/

theorem quot1 (x0 : (⟨S50000x128, .f32⟩ : BufTy).Contents (Elt Ideal)) (x1 : (⟨S2x800000, .i32⟩ : BufTy).Contents (Elt Ideal)) (j : S50000x128.Idx) :
    val_main_v22 (F := Ideal) x0 x1 j = Ideal.div (aggR x1 x0 j) (degR x1 (ix1 (j 0))) := by
  rw [val_main_v22_apply, val_main_v21_apply, val_main_v20_apply, rowidx21, Ideal.hostDivf_def, agg1_eq, deg1_eq]
  rfl

theorem wl1 (x3 : (⟨S128x128, .f32⟩ : BufTy).Contents (Elt Ideal)) (j : S128x128.Idx) : val_main_v23 (F := Ideal) x3 j = tr x3 j := by
  rw [val_main_v23_apply, tidx23]; rfl

theorem wr1 (x5 : (⟨S128x128, .f32⟩ : BufTy).Contents (Elt Ideal)) (j : S128x128.Idx) : val_main_v28 (F := Ideal) x5 j = tr x5 j := by
  rw [val_main_v28_apply, tidx28]; rfl

theorem layer1_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v31 (F := Ideal) x0 x1 x3 x4 x5 = layerR (aggR x1 x0) (degR x1) x0 x3 x4 x5 := by
  funext i
  rw [val_main_v31_apply, val_main_v30_apply, val_main_v27_apply, val_main_v24_apply, val_main_v29_apply,
    val_main_v26_apply, val_main_v25_apply, colidx26, val_main_call0_v0_apply, val_main_call0_cst_apply,
    Ideal.maximumf_def, Ideal.addf_def, Ideal.addf_def, Ideal.ofBits_def]
  simp only [lidx24, ridx24, lidx29, ridx29]
  exact layer_of_reads (aggR x1 x0) (degR x1) x0 x3 x4 x5 (val_main_v22 (F := Ideal) x0 x1) (val_main_v23 (F := Ideal) x3)
    (val_main_v28 (F := Ideal) x5) (quot1 x0 x1) (wl1 x3) (wr1 x5) i

/-! ## The second layer, on the first layer's output -/

theorem quot2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (j : S50000x128.Idx) :
    val_main_v50 (F := Ideal) x0 x1 x3 x4 x5 j
      = Ideal.div (aggR x1 (val_main_v31 (F := Ideal) x0 x1 x3 x4 x5) j) (degR x1 (ix1 (j 0))) := by
  rw [val_main_v50_apply, val_main_v49_apply, val_main_v48_apply, rowidx49, Ideal.hostDivf_def, agg2_eq, deg2_eq]
  rfl

theorem wl2 (x6 : (⟨S128x128, .f32⟩ : BufTy).Contents (Elt Ideal)) (j : S128x128.Idx) : val_main_v51 (F := Ideal) x6 j = tr x6 j := by
  rw [val_main_v51_apply, tidx51]; rfl

theorem wr2 (x8 : (⟨S128x128, .f32⟩ : BufTy).Contents (Elt Ideal)) (j : S128x128.Idx) : val_main_v56 (F := Ideal) x8 j = tr x8 j := by
  rw [val_main_v56_apply, tidx56]; rfl

theorem layer2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v59 (F := Ideal) x0 x1 x3 x4 x5 x6 x7 x8
      = layerR (aggR x1 (val_main_v31 (F := Ideal) x0 x1 x3 x4 x5)) (degR x1) (val_main_v31 (F := Ideal) x0 x1 x3 x4 x5) x6 x7 x8 := by
  funext i
  rw [val_main_v59_apply, val_main_v58_apply, val_main_v55_apply, val_main_v52_apply, val_main_v57_apply,
    val_main_v54_apply, val_main_v53_apply, colidx54, val_main_call1_v0_apply, val_main_call1_cst_apply,
    Ideal.maximumf_def, Ideal.addf_def, Ideal.addf_def, Ideal.ofBits_def]
  simp only [lidx52, ridx52, lidx57, ridx57]
  exact layer_of_reads (aggR x1 (val_main_v31 (F := Ideal) x0 x1 x3 x4 x5)) (degR x1) (val_main_v31 (F := Ideal) x0 x1 x3 x4 x5) x6 x7 x8
    (val_main_v50 (F := Ideal) x0 x1 x3 x4 x5) (val_main_v51 (F := Ideal) x6) (val_main_v56 (F := Ideal) x8)
    (quot2 x0 x1 x3 x4 x5) (wl2 x6) (wr2 x8) i

/-! ## The mean pool and the classifier, on the second layer's output -/

theorem quot3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x2 : (⟨S50000, .i32⟩ : BufTy).Contents (Elt Ideal)) (j : S128x128.Idx) :
    val_main_v71 (F := Ideal) x0 x1 x2 x3 x4 x5 x6 x7 x8 j
      = Ideal.div (gsumR x2 (val_main_v59 (F := Ideal) x0 x1 x3 x4 x5 x6 x7 x8) j) (gcntR x2 (ix1 (j 0))) := by
  rw [val_main_v71_apply, val_main_v70_apply, val_main_v69_apply, rowidx70, Ideal.hostDivf_def, gsum_eq, gcnt_eq]
  rfl

theorem cw3 (x9 : (⟨S128x128, .f32⟩ : BufTy).Contents (Elt Ideal)) (j : S128x128.Idx) : val_main_v72 (F := Ideal) x9 j = tr x9 j := by
  rw [val_main_v72_apply, tidx72]; rfl

theorem pool_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    val_main_v76 (F := Ideal) x0 x1 x2 x3 x4 x5 x6 x7 x8 x9 x10
      = poolR (gsumR x2 (val_main_v59 (F := Ideal) x0 x1 x3 x4 x5 x6 x7 x8)) (gcntR x2) x9 x10 := by
  funext i
  rw [val_main_v76_apply, val_main_v73_apply, val_main_v75_apply, val_main_v74_apply, colidx75, Ideal.addf_def]
  simp only [lidx73, ridx73]
  exact pool_of_reads (gsumR x2 (val_main_v59 (F := Ideal) x0 x1 x3 x4 x5 x6 x7 x8)) (gcntR x2) x9 x10 (val_main_v71 (F := Ideal) x0 x1 x2 x3 x4 x5 x6 x7 x8)
    (val_main_v72 (F := Ideal) x9) (quot3 x0 x1 x3 x4 x5 x6 x7 x8 x2) (cw3 x9) i

/-! ## The result -/

/-- The textbook program's result: the classifier on the mean pool of the second layer of the first layer. -/
theorem ref_result (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    val_main_v76 (F := Ideal) x0 x1 x2 x3 x4 x5 x6 x7 x8 x9 x10
      = poolR
          (gsumR x2
            (layerR (aggR x1 (layerR (aggR x1 x0) (degR x1) x0 x3 x4 x5)) (degR x1)
              (layerR (aggR x1 x0) (degR x1) x0 x3 x4 x5) x6 x7 x8))
          (gcntR x2) x9 x10 := by
  rw [pool_eq, layer2_eq, layer1_eq]

end Cert.RefValue

end
-- ==== Proof.HostReads.lean ====
/-
  The host's layout operations around the kernel regions, read at an entry.

  Stacking two transposed [128, 128] arrays gives the [256, 128] array whose first 128 rows are the first array's
  columns; a length-128 vector reshaped to a [1, 128] row is read at its column; a vector spread into a one-column
  array is read at its row; a constant spread over a shape is that constant everywhere.
-/
import proofs.«152667_j39977555591470_2_alg».proof.Proof.Spec
import Idealize.ShloMosaic.Lib.Pipeline.Value
import Idealize.ShloMosaic.Lib.ValueLayout

noncomputable section

namespace Cert.Sage

open Idealize.ShloMosaic Idealize.ShloMosaic.ValueIdx Cert.PlainDot

/-- Two [128, 128] arrays concatenated along the rows are the two arrays stacked. -/
theorem concat_rows (a b : (⟨2, ![128, 128]⟩ : Shape).Idx → EReal)
    (h : Shape.Concatenates [(⟨2, ![128, 128]⟩ : Shape), (⟨2, ![128, 128]⟩ : Shape)] (⟨2, ![256, 128]⟩ : Shape) 0) :
    concatenate (⟨2, ![256, 128]⟩ : Shape) 0 [⟨(⟨2, ![128, 128]⟩ : Shape), a⟩, ⟨(⟨2, ![128, 128]⟩ : Shape), b⟩] h = catRows a b := by
  funext j
  unfold catRows
  by_cases hj : (j 0).val < 128
  · rw [dif_pos hj]
    exact concatenate_pair_apply_left 0 a b h j rfl (ix2 ⟨(j 0).val, hj⟩ (j 1))
      (fun q => match q with | ⟨0, _⟩ => rfl | ⟨1, _⟩ => rfl)
  · rw [dif_neg hj]
    have h2 : (j 0).val < 256 := (j 0).isLt
    exact concatenate_pair_apply_right 0 a b h j rfl rfl (ix2 ⟨(j 0).val - 128, by omega⟩ (j 1))
      (fun q hq => match q, hq with | ⟨0, _⟩, hq => absurd rfl hq | ⟨1, _⟩, _ => rfl)
      (by show (j 0).val - 128 + 128 = (j 0).val; omega)

/-- The transposed square array is `tr`. -/
theorem transpose_eq_tr (w : (⟨2, ![128, 128]⟩ : Shape).Idx → EReal)
    (h : (⟨2, ![128, 128]⟩ : Shape).Transposes [1, 0] ⟨2, ![128, 128]⟩) :
    transpose ⟨2, ![128, 128]⟩ [1, 0] w h = tr w :=
  funext fun j => (congrArg (transpose ⟨2, ![128, 128]⟩ [1, 0] w h) (eq_ix2 j)).trans
    (transpose_ix2_apply w h (j 0) (j 1))

/-- A length-128 vector reshaped to a [1, 128] row reads, at (0, c), the vector's entry c. -/
theorem row_of_vec (b : (⟨1, ![128]⟩ : Shape).Idx → EReal) (h : (⟨1, ![128]⟩ : Shape).ShapeCasts ⟨2, ![1, 128]⟩)
    (j : (⟨2, ![1, 128]⟩ : Shape).Idx) : shapeCast ⟨2, ![1, 128]⟩ b h j = b (ix1 (j 1)) :=
  shapeCast_apply b h j (ix1 (j 1)) (by
    rewrite [Shape.rowMajor_val_one, Shape.rowMajor_val_two]
    have h0 : (j 0).val < 1 := (j 0).isLt
    show (j 1).val = (j 0).val * 128 + (j 1).val
    omega)

/-- A length-M vector spread into an [M, 1] column reads, at (r, 0), the vector's entry r. -/
theorem col_of_vec {M : Nat} (hM : M ≠ 1) (v : (⟨1, ![M]⟩ : Shape).Idx → EReal)
    (h : (⟨1, ![M]⟩ : Shape).BroadcastsInDim ⟨2, ![M, 1]⟩ ![0]) (j : (⟨2, ![M, 1]⟩ : Shape).Idx) :
    broadcastInDim ⟨2, ![M, 1]⟩ ![0] h v j = v (ix1 (j 0)) :=
  broadcastInDim_apply ![0] h v j (ix1 (j 0)) fun a => match a with
    | ⟨0, _⟩ => by show (j 0).val = if M = 1 then 0 else (j 0).val; rw [if_neg hM]

/-- A constant spread over a shape is that constant at every entry. -/
theorem const_apply {s : Shape} (w : BitVec 32) (h : (⟨0, ![]⟩ : Shape).BroadcastsInDim s ![]) (j : s.Idx) :
    broadcastInDim s ![] h (constant (F := Ideal) ⟨0, ![]⟩ .f32 w) j = Ideal.ofBits .f32 w :=
  broadcastInDim_apply ![] h (constant (F := Ideal) ⟨0, ![]⟩ .f32 w) j (fun a => a.elim0) (fun a => a.elim0)

/-- The reciprocals `1 / d` of a vector, spread into a column: entry (r, 0) is `1 / d(r)`. -/
theorem recip_col {M : Nat} (hM : M ≠ 1) (d : (⟨1, ![M]⟩ : Shape).Idx → EReal)
    (h1 : (⟨0, ![]⟩ : Shape).BroadcastsInDim ⟨1, ![M]⟩ ![]) (h2 : (⟨1, ![M]⟩ : Shape).BroadcastsInDim ⟨2, ![M, 1]⟩ ![0])
    (j : (⟨2, ![M, 1]⟩ : Shape).Idx) :
    broadcastInDim ⟨2, ![M, 1]⟩ ![0] h2 (Host.divf (F := Ideal) (φ := .f32)
      (broadcastInDim ⟨1, ![M]⟩ ![] h1 (constant (F := Ideal) ⟨0, ![]⟩ .f32 0x3F800000#32)) d) j
      = Ideal.div oneWord (d (ix1 (j 0))) := by
  rw [col_of_vec hM]
  show Ideal.div (broadcastInDim ⟨1, ![M]⟩ ![] h1 (constant (F := Ideal) ⟨0, ![]⟩ .f32 0x3F800000#32) (ix1 (j 0)))
    (d (ix1 (j 0))) = _
  rw [const_apply]

/-- The reciprocals of a count vector spread into a column and clamped below at one: entry (r, 0) is
    `1 / max(cnt(r), 1)`. -/
theorem recip_col_max {M : Nat} (hM : M ≠ 1) (cnt : (⟨1, ![M]⟩ : Shape).Idx → EReal)
    (h1 : (⟨0, ![]⟩ : Shape).BroadcastsInDim ⟨2, ![M, 1]⟩ ![]) (h2 : (⟨1, ![M]⟩ : Shape).BroadcastsInDim ⟨2, ![M, 1]⟩ ![0])
    (j : (⟨2, ![M, 1]⟩ : Shape).Idx) :
    Host.divf (F := Ideal) (φ := .f32)
      (broadcastInDim ⟨2, ![M, 1]⟩ ![] h1 (constant (F := Ideal) ⟨0, ![]⟩ .f32 0x3F800000#32))
      (maximumf (F := Ideal) (φ := .f32) (broadcastInDim ⟨2, ![M, 1]⟩ ![0] h2 cnt)
        (broadcastInDim ⟨2, ![M, 1]⟩ ![] h1 (constant (F := Ideal) ⟨0, ![]⟩ .f32 0x3F800000#32))) j
      = Ideal.div oneWord (max (cnt (ix1 (j 0))) oneWord) := by
  show Ideal.div (broadcastInDim ⟨2, ![M, 1]⟩ ![] h1 (constant (F := Ideal) ⟨0, ![]⟩ .f32 0x3F800000#32) j)
    (max (broadcastInDim ⟨2, ![M, 1]⟩ ![0] h2 cnt j)
      (broadcastInDim ⟨2, ![M, 1]⟩ ![] h1 (constant (F := Ideal) ⟨0, ![]⟩ .f32 0x3F800000#32) j)) = _
  rw [const_apply, col_of_vec hM]

end Cert.Sage

end
-- ==== Proof.Payload.lean ====
/-
  What each kernel body stores, as a function of the blocks it loads.

  The first two bodies load a [2000, 128] block of neighbour sums, the [2000, 1] block of reciprocal counts, a
  [2000, 128] block of node features, the whole [256, 128] stacked weight array and the [1, 128] bias row; they scale
  the sums row by row, put them beside the features, multiply by the stacked weights into a zero accumulator, add
  the bias row and clamp below at zero: the layer in the side-by-side arrangement, on 2000 rows. (The two bodies
  differ in the format the features arrive in, which on the extended reals is no difference.) The third body scales
  the pooled sums row by row, multiplies by the transposed classifier weights and adds the bias row.
  Changes of float format are the identity on the extended reals and vanish by unfolding.
-/
import proofs.«152667_j39977555591470_2_alg».proof.Proof.Gen.KernelIdeal.Skeleton
import proofs.«152667_j39977555591470_2_alg».proof.Proof.Spec
import Idealize.ShloMosaic.Lib.Pipeline.Value
import Idealize.ShloMosaic.Lib.ValueLayout

noncomputable section

namespace Cert.KernelIdeal.Pay

open Idealize.ShloMosaic Idealize.ShloMosaic.ValueIdx Cert.PlainDot Cert.KernelIdeal

/-- An [M, 1] column broadcast along the rows of an [M, N] array reads, at (r, c), the column's entry r. -/
theorem broadcastTo_col {M N : Nat} (hM : M ≠ 1) (s : (⟨2, ![M, 1]⟩ : Shape).Idx → EReal)
    (h : (⟨2, ![M, 1]⟩ : Shape).Broadcasts ⟨2, ![M, N]⟩) (j : (⟨2, ![M, N]⟩ : Shape).Idx) :
    broadcastTo ⟨2, ![M, N]⟩ s h j = s (ix2 (j 0) (0 : Fin 1)) :=
  broadcastTo_apply s h j (ix2 (j 0) (0 : Fin 1)) fun a => match a with
    | ⟨0, _⟩ => by show (j 0).val = if M = 1 then 0 else (j 0).val; rw [if_neg hM]
    | ⟨1, _⟩ => by show (0 : Nat) = if (1 : Nat) = 1 then 0 else _; rw [if_pos rfl]

/-- Two [2000, 128] blocks concatenated along the columns are the two blocks side by side. -/
theorem concat_cols (a b : (⟨2, ![2000, 128]⟩ : Shape).Idx → EReal)
    (h : Shape.Concatenates [S2000x128, S2000x128] S2000x256 1) :
    concatenate S2000x256 1 [⟨S2000x128, a⟩, ⟨S2000x128, b⟩] h = Cert.Sage.catCols a b := by
  funext j
  unfold Cert.Sage.catCols
  by_cases hj : (j 1).val < 128
  · rw [dif_pos hj]
    exact concatenate_pair_apply_left 1 a b h j rfl (ix2 (j 0) ⟨(j 1).val, hj⟩)
      (fun q => match q with | ⟨0, _⟩ => rfl | ⟨1, _⟩ => rfl)
  · rw [dif_neg hj]
    have h2 : (j 1).val < 256 := (j 1).isLt
    exact concatenate_pair_apply_right 1 a b h j rfl rfl (ix2 (j 0) ⟨(j 1).val - 128, by omega⟩)
      (fun q hq => match q, hq with | ⟨0, _⟩, _ => rfl | ⟨1, _⟩, hq => absurd rfl hq)
      (by show (j 1).val - 128 + 128 = (j 1).val; omega)

/-- The rows of `a` scaled by the column `s`, as the body spells it: a product with the column broadcast. -/
theorem scale_eq {M N : Nat} (hM : M ≠ 1) (a : (⟨2, ![M, N]⟩ : Shape).Idx → EReal) (s : (⟨2, ![M, 1]⟩ : Shape).Idx → EReal)
    (h : (⟨2, ![M, 1]⟩ : Shape).Broadcasts ⟨2, ![M, N]⟩) :
    (mulf (F := Ideal) (φ := .f32) a (broadcastTo ⟨2, ![M, N]⟩ s h) : (⟨2, ![M, N]⟩ : Shape).Idx → EReal) = Cert.Sage.scaleRows a s :=
  funext fun j => by
    show a j * broadcastTo ⟨2, ![M, N]⟩ s h j = a j * s (ix2 (j 0) (0 : Fin 1))
    rw [broadcastTo_col hM]

/-- The first layer's body stores the layer of its blocks. -/
theorem pay0_eq (x0 : Vec Ideal S2000x128 .f32) (x1 : Vec Ideal S2000x1 .f32) (x2 : Vec Ideal S2000x128 .f32)
    (x3 : Vec Ideal S256x128 .bf16) (x4 : Vec Ideal S1x128 .f32) :
    Gen.k0_pay1 (F := Ideal) x0 x1 x2 x3 x4 = Cert.Sage.layerK (M := 2000) x0 x1 x2 x3 x4 := by
  unfold Gen.k0_pay1
  simp only [shapeCast_self]
  funext z
  refine congrArg₂ max (congrArg₂ (· + ·) ?_ ?_) rfl
  · refine (congrFun (matmul_zero (M := 2000) (K := 256) (N := 128) none _ x3) z).trans ?_
    refine congrArg (fun a => mm a x3 z) ?_
    refine (concat_cols _ _ _).trans ?_
    refine congrArg₂ Cert.Sage.catCols ?_ rfl
    exact (congrArg₂ (fun a s => (mulf (F := Ideal) (φ := .f32) a (broadcastTo S2000x128 s Gen.broadcasts_S2000x1_S2000x128) :
        (⟨2, ![2000, 128]⟩ : Shape).Idx → EReal)) (shapeCast_self x0 Gen.shapeCasts_S2000x128_S2000x128)
        (shapeCast_self x1 Gen.shapeCasts_S2000x1_S2000x1)).trans (scale_eq (by decide) x0 x1 _)
  · exact broadcastTo_row (by decide) x4 _ z

/-- The second layer's body stores the layer of its blocks. -/
theorem pay1_eq (x0 : Vec Ideal S2000x128 .f32) (x1 : Vec Ideal S2000x1 .f32) (x2 : Vec Ideal S2000x128 .bf16)
    (x3 : Vec Ideal S256x128 .bf16) (x4 : Vec Ideal S1x128 .f32) :
    Gen.k1_pay1 (F := Ideal) x0 x1 x2 x3 x4 = Cert.Sage.layerK (M := 2000) x0 x1 x2 x3 x4 := by
  unfold Gen.k1_pay1
  simp only [shapeCast_self]
  funext z
  refine congrArg₂ max (congrArg₂ (· + ·) ?_ ?_) rfl
  · refine (congrFun (matmul_zero (M := 2000) (K := 256) (N := 128) none _ x3) z).trans ?_
    refine congrArg (fun a => mm a x3 z) ?_
    refine (concat_cols _ _ _).trans ?_
    refine congrArg₂ Cert.Sage.catCols ?_ (shapeCast_self x2 Gen.shapeCasts_S2000x128_S2000x128)
    exact (congrArg₂ (fun a s => (mulf (F := Ideal) (φ := .f32) a (broadcastTo S2000x128 s Gen.broadcasts_S2000x1_S2000x128) :
        (⟨2, ![2000, 128]⟩ : Shape).Idx → EReal)) (shapeCast_self x0 Gen.shapeCasts_S2000x128_S2000x128)
        (shapeCast_self x1 Gen.shapeCasts_S2000x1_S2000x1)).trans (scale_eq (by decide) x0 x1 _)
  · exact broadcastTo_row (by decide) x4 _ z

/-- The classifier's body stores the classifier of its blocks. -/
theorem pay2_eq (x0 : Vec Ideal S128x128 .f32) (x1 : Vec Ideal S128x1 .f32) (x2 : Vec Ideal S128x128 .bf16)
    (x3 : Vec Ideal S1x128 .f32) :
    Gen.k2_pay1 (F := Ideal) x0 x1 x2 x3 = Cert.Sage.poolK x0 x1 x2 x3 := by
  unfold Gen.k2_pay1
  simp only [shapeCast_self]
  funext z
  refine congrArg₂ (· + ·) ?_ ?_
  · refine (congrFun (matmul_zero (M := 128) (K := 128) (N := 128) none _ x2) z).trans ?_
    refine congrArg (fun a => mm a x2 z) ?_
    exact scale_eq (by decide) x0 x1 _
  · exact broadcastTo_row (by decide) x3 _ z

end Cert.KernelIdeal.Pay

end
-- ==== Proof.Blocks.lean ====
/-
  Taking a row block commutes with the layer in the side-by-side arrangement.

  Scaling rows by a column and putting two arrays side by side act row by row, so the rows `off …` of the result
  are the same operation on the rows `off …` of the operands; with the product, the bias row and the clamp this
  gives the whole layer.
-/
import proofs.«152667_j39977555591470_2_alg».proof.Proof.Spec

noncomputable section

namespace Cert.Sage

open Idealize.ShloMosaic Idealize.ShloMosaic.ValueIdx Cert.PlainDot

/-- Rows `off …` of `a` scaled by `s` are rows `off …` of `a` scaled by rows `off …` of `s`. -/
theorem scaleRows_rowBlock {M Mb N : Nat} {a : (⟨2, ![M, N]⟩ : Shape).Idx → EReal} {ab : (⟨2, ![Mb, N]⟩ : Shape).Idx → EReal}
    {s : (⟨2, ![M, 1]⟩ : Shape).Idx → EReal} {sb : (⟨2, ![Mb, 1]⟩ : Shape).Idx → EReal} {off : Nat}
    (ha : RowBlock a ab off) (hs : RowBlock s sb off) : RowBlock (scaleRows a s) (scaleRows ab sb) off := by
  intro z i h0 h1
  show ab z * sb (ix2 (z 0) (0 : Fin 1)) = a i * s (ix2 (i 0) (0 : Fin 1))
  rw [ha z i h0 h1, hs (ix2 (z 0) (0 : Fin 1)) (ix2 (i 0) (0 : Fin 1)) h0 rfl]

/-- Rows `off …` of two arrays side by side are the two row blocks side by side. -/
theorem catCols_rowBlock {M Mb : Nat} {a b : (⟨2, ![M, 128]⟩ : Shape).Idx → EReal}
    {ab bb : (⟨2, ![Mb, 128]⟩ : Shape).Idx → EReal} {off : Nat}
    (ha : RowBlock a ab off) (hb : RowBlock b bb off) : RowBlock (catCols a b) (catCols ab bb) off := by
  intro z i h0 h1
  unfold catCols
  by_cases h : (z 1).val < 128
  · have h' : (i 1).val < 128 := by omega
    rw [dif_pos h, dif_pos h']
    exact ha _ _ h0 h1
  · have h' : ¬ (i 1).val < 128 := by omega
    rw [dif_neg h, dif_neg h']
    refine hb _ _ h0 ?_
    show (i 1).val - 128 = (z 1).val - 128
    omega

/-- Rows `off …` of a layer are the layer of the row blocks. -/
theorem layerK_rowBlock {M Mb : Nat} {agg root : (⟨2, ![M, 128]⟩ : Shape).Idx → EReal}
    {aggb rootb : (⟨2, ![Mb, 128]⟩ : Shape).Idx → EReal} {invd : (⟨2, ![M, 1]⟩ : Shape).Idx → EReal}
    {invdb : (⟨2, ![Mb, 1]⟩ : Shape).Idx → EReal} {wcat wcatb : (⟨2, ![256, 128]⟩ : Shape).Idx → EReal}
    {brow browb : (⟨2, ![1, 128]⟩ : Shape).Idx → EReal} {off : Nat}
    (h1 : RowBlock agg aggb off) (h2 : RowBlock invd invdb off) (h3 : RowBlock root rootb off)
    (h4 : ∀ z, wcatb z = wcat z) (h5 : ∀ z, browb z = brow z) :
    RowBlock (layerK agg invd root wcat brow) (layerK aggb invdb rootb wcatb browb) off :=
  clampBelow_rowBlock zeroWord (affine_rowBlock (catCols_rowBlock (scaleRows_rowBlock h1 h2) h3) h4 h5)

end Cert.Sage

end
-- ==== Proof.Region0.lean ====
/-
  The array the first layer's region leaves, as one function of the arrays it finds.

  The region runs its body at 25 grid points; at point t the three row windows hold rows 2000·t … 2000·t + 1999 of
  their arrays, the weight and bias windows hold their whole arrays, and the body's result is written back to rows
  2000·t … of the output array. A row block of the layer is the layer of the row blocks, so what point t writes
  back is block t of the layer of the whole arrays; the 25 blocks tile the 50000 rows, so the output array ends
  holding the layer of the whole arrays.
-/
import proofs.«152667_j39977555591470_2_alg».proof.Proof.Gen.KernelIdeal.Frame
import proofs.«152667_j39977555591470_2_alg».proof.Proof.Payload
import proofs.«152667_j39977555591470_2_alg».proof.Proof.Blocks

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.PlainDot Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row windows move with the output window along the
    rows, nothing moves along the columns, and the weight and bias windows do not move. -/
theorem idx : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 25 :=
  (by decide +kernel : ∀ t : Fin grid0.N, _)

/-- Every one of the 25 row blocks is some point's. -/
theorem onto : ∀ q : Fin 25, ∃ t : Fin cfg0.N, win0_5.index t (0 : Fin 2) = q.val :=
  (by decide +kernel : ∀ q : Fin 25, ∃ t : Fin grid0.N, win0_5.index t (0 : Fin 2) = q.val)

/-- The neighbour-sum window's block at point `t` is rows 2000·(block index) … of its array. -/
theorem rows_0 (c : Dev nD) (t : Fin cfg0.N) :
    RowBlock (M := 50000) (Mb := 2000) (N := 128) (V c main_v22) (iblk0 V c 0 t) (win0_5.index t (0 : Fin 2) * 2000) := by
  intro z i h0 h1
  obtain ⟨e0, e1, -⟩ := idx t
  show V c main_v22 (((cfg0.win 0).blk t).view.emb z) = V c main_v22 i
  refine congrArg (V c main_v22) (funext fun a => Fin.ext ?_)
  match a with
  | ⟨0, _⟩ => show win0_0.index t (0 : Fin 2) * 2000 + 1 * (z 0).val = (i 0).val; omega
  | ⟨1, _⟩ => show win0_0.index t (1 : Fin 2) * 128 + 1 * (z 1).val = (i 1).val; omega

/-- The reciprocal-count window's block at point `t` is rows 2000·(block index) … of its array. -/
theorem rows_1 (c : Dev nD) (t : Fin cfg0.N) :
    RowBlock (M := 50000) (Mb := 2000) (N := 1) (V c main_v12) (iblk0 V c 1 t) (win0_5.index t (0 : Fin 2) * 2000) := by
  intro z i h0 h1
  obtain ⟨-, -, e0, e1, -⟩ := idx t
  show V c main_v12 (((cfg0.win 1).blk t).view.emb z) = V c main_v12 i
  refine congrArg (V c main_v12) (funext fun a => Fin.ext ?_)
  match a with
  | ⟨0, _⟩ => show win0_1.index t (0 : Fin 2) * 2000 + 1 * (z 0).val = (i 0).val; omega
  | ⟨1, _⟩ => show win0_1.index t (1 : Fin 2) * 1 + 1 * (z 1).val = (i 1).val; omega

/-- The feature window's block at point `t` is rows 2000·(block index) … of its array. -/
theorem rows_2 (c : Dev nD) (t : Fin cfg0.N) :
    RowBlock (M := 50000) (Mb := 2000) (N := 128) (V c main_arg0) (iblk0 V c 2 t) (win0_5.index t (0 : Fin 2) * 2000) := by
  intro z i h0 h1
  obtain ⟨-, -, -, -, e0, e1, -⟩ := idx t
  show V c main_arg0 (((cfg0.win 2).blk t).view.emb z) = V c main_arg0 i
  refine congrArg (V c main_arg0) (funext fun a => Fin.ext ?_)
  match a with
  | ⟨0, _⟩ => show win0_2.index t (0 : Fin 2) * 2000 + 1 * (z 0).val = (i 0).val; omega
  | ⟨1, _⟩ => show win0_2.index t (1 : Fin 2) * 128 + 1 * (z 1).val = (i 1).val; omega

/-- The weight window's block is its whole array at every point. -/
theorem whole_3 (c : Dev nD) (t : Fin cfg0.N) (z : S256x128.Idx) : iblk0 V c 3 t z = V c main_v26 z := by
  obtain ⟨-, -, -, -, -, -, e0, e1, -⟩ := idx t
  show V c main_v26 (((cfg0.win 3).blk t).view.emb z) = V c main_v26 z
  refine congrArg (V c main_v26) (funext fun a => Fin.ext ?_)
  match a with
  | ⟨0, _⟩ => show win0_3.index t (0 : Fin 2) * 256 + 1 * (z 0).val = (z 0).val; omega
  | ⟨1, _⟩ => show win0_3.index t (1 : Fin 2) * 128 + 1 * (z 1).val = (z 1).val; omega

/-- The bias window's block is its whole array at every point. -/
theorem whole_4 (c : Dev nD) (t : Fin cfg0.N) (z : S1x128.Idx) : iblk0 V c 4 t z = V c main_v27 z := by
  obtain ⟨-, -, -, -, -, -, -, -, e0, e1, -⟩ := idx t
  show V c main_v27 (((cfg0.win 4).blk t).view.emb z) = V c main_v27 z
  refine congrArg (V c main_v27) (funext fun a => Fin.ext ?_)
  match a with
  | ⟨0, _⟩ => show win0_4.index t (0 : Fin 2) * 1 + 1 * (z 0).val = (z 0).val; omega
  | ⟨1, _⟩ => show win0_4.index t (1 : Fin 2) * 128 + 1 * (z 1).val = (z 1).val; omega

/-- What point `t` writes back is block `t` of the layer of the arrays the region finds. -/
theorem flushed (c : Dev nD) (t : Fin cfg0.N) :
    (dat0 V c).flushed 5 t = ((cfg0.win 5).blk t).view.read (Elt Ideal)
      (Cert.Sage.layerK (M := 50000) (V c main_v22) (V c main_v12) (V c main_arg0) (V c main_v26) (V c main_v27)) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz,
    View.ld_unit_zero (S := S256x128) hz, View.ld_unit_zero (S := S1x128) hz]
  funext y
  refine (congrFun (Pay.pay0_eq (iblk0 V c 0 t) (iblk0 V c 1 t) (iblk0 V c 2 t) (iblk0 V c 3 t) (iblk0 V c 4 t)) y).trans ?_
  obtain ⟨-, -, -, -, -, -, -, -, -, -, e1, -⟩ := idx t
  exact Cert.Sage.layerK_rowBlock (rows_0 V c t) (rows_1 V c t) (rows_2 V c t) (whole_3 V c t) (whole_4 V c t) y
    (((cfg0.win 5).blk t).view.emb y)
    (by show win0_5.index t (0 : Fin 2) * 2000 + 1 * (y 0).val = win0_5.index t (0 : Fin 2) * 2000 + (y 0).val; omega)
    (by show win0_5.index t (1 : Fin 2) * 128 + 1 * (y 1).val = (y 1).val; omega)

/-- An index of the output array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- Every index of the output array is in some point's block: row r is in block r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := onto ⟨(i 0).val / 2000, by omega⟩
  have q0 : win0_5.index t (0 : Fin 2) = (i 0).val / 2000 := ht
  obtain ⟨-, -, -, -, -, -, -, -, -, -, e1, -⟩ := idx t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays the region finds. -/
theorem final (c : Dev nD) : (dat0 V c).arrAt 5 cfg0.N
    = Cert.Sage.layerK (M := 50000) (V c main_v22) (V c main_v12) (V c main_arg0) (V c main_v26) (V c main_v27) :=
  (dat0 V c).arrAt_eq_of_cover 5 _ (fun t _ => flushed V c t) (cover)

end Cert.KernelIdeal.Reg0

end
-- ==== Proof.Region1.lean ====
/-
  The array the second layer's region leaves, as one function of the arrays it finds.

  The region runs its body at 25 grid points; at point t the three row windows hold rows 2000·t … 2000·t + 1999 of
  their arrays, the weight and bias windows hold their whole arrays, and the body's result is written back to rows
  2000·t … of the output array. A row block of the layer is the layer of the row blocks, so what point t writes
  back is block t of the layer of the whole arrays; the 25 blocks tile the 50000 rows, so the output array ends
  holding the layer of the whole arrays.
-/
import proofs.«152667_j39977555591470_2_alg».proof.Proof.Gen.KernelIdeal.Frame
import proofs.«152667_j39977555591470_2_alg».proof.Proof.Payload
import proofs.«152667_j39977555591470_2_alg».proof.Proof.Blocks

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.PlainDot Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row windows move with the output window along the
    rows, nothing moves along the columns, and the weight and bias windows do not move. -/
theorem idx : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) < 25 :=
  (by decide +kernel : ∀ t : Fin grid1.N, _)

/-- Every one of the 25 row blocks is some point's. -/
theorem onto : ∀ q : Fin 25, ∃ t : Fin cfg1.N, win1_5.index t (0 : Fin 2) = q.val :=
  (by decide +kernel : ∀ q : Fin 25, ∃ t : Fin grid1.N, win1_5.index t (0 : Fin 2) = q.val)

/-- The neighbour-sum window's block at point `t` is rows 2000·(block index) … of its array. -/
theorem rows_0 (c : Dev nD) (t : Fin cfg1.N) :
    RowBlock (M := 50000) (Mb := 2000) (N := 128) (V c main_v39) (iblk1 V c 0 t) (win1_5.index t (0 : Fin 2) * 2000) := by
  intro z i h0 h1
  obtain ⟨e0, e1, -⟩ := idx t
  show V c main_v39 (((cfg1.win 0).blk t).view.emb z) = V c main_v39 i
  refine congrArg (V c main_v39) (funext fun a => Fin.ext ?_)
  match a with
  | ⟨0, _⟩ => show win1_0.index t (0 : Fin 2) * 2000 + 1 * (z 0).val = (i 0).val; omega
  | ⟨1, _⟩ => show win1_0.index t (1 : Fin 2) * 128 + 1 * (z 1).val = (i 1).val; omega

/-- The reciprocal-count window's block at point `t` is rows 2000·(block index) … of its array. -/
theorem rows_1 (c : Dev nD) (t : Fin cfg1.N) :
    RowBlock (M := 50000) (Mb := 2000) (N := 1) (V c main_v12) (iblk1 V c 1 t) (win1_5.index t (0 : Fin 2) * 2000) := by
  intro z i h0 h1
  obtain ⟨-, -, e0, e1, -⟩ := idx t
  show V c main_v12 (((cfg1.win 1).blk t).view.emb z) = V c main_v12 i
  refine congrArg (V c main_v12) (funext fun a => Fin.ext ?_)
  match a with
  | ⟨0, _⟩ => show win1_1.index t (0 : Fin 2) * 2000 + 1 * (z 0).val = (i 0).val; omega
  | ⟨1, _⟩ => show win1_1.index t (1 : Fin 2) * 1 + 1 * (z 1).val = (i 1).val; omega

/-- The feature window's block at point `t` is rows 2000·(block index) … of its array. -/
theorem rows_2 (c : Dev nD) (t : Fin cfg1.N) :
    RowBlock (M := 50000) (Mb := 2000) (N := 128) (V c main_v28) (iblk1 V c 2 t) (win1_5.index t (0 : Fin 2) * 2000) := by
  intro z i h0 h1
  obtain ⟨-, -, -, -, e0, e1, -⟩ := idx t
  show V c main_v28 (((cfg1.win 2).blk t).view.emb z) = V c main_v28 i
  refine congrArg (V c main_v28) (funext fun a => Fin.ext ?_)
  match a with
  | ⟨0, _⟩ => show win1_2.index t (0 : Fin 2) * 2000 + 1 * (z 0).val = (i 0).val; omega
  | ⟨1, _⟩ => show win1_2.index t (1 : Fin 2) * 128 + 1 * (z 1).val = (i 1).val; omega

/-- The weight window's block is its whole array at every point. -/
theorem whole_3 (c : Dev nD) (t : Fin cfg1.N) (z : S256x128.Idx) : iblk1 V c 3 t z = V c main_v43 z := by
  obtain ⟨-, -, -, -, -, -, e0, e1, -⟩ := idx t
  show V c main_v43 (((cfg1.win 3).blk t).view.emb z) = V c main_v43 z
  refine congrArg (V c main_v43) (funext fun a => Fin.ext ?_)
  match a with
  | ⟨0, _⟩ => show win1_3.index t (0 : Fin 2) * 256 + 1 * (z 0).val = (z 0).val; omega
  | ⟨1, _⟩ => show win1_3.index t (1 : Fin 2) * 128 + 1 * (z 1).val = (z 1).val; omega

/-- The bias window's block is its whole array at every point. -/
theorem whole_4 (c : Dev nD) (t : Fin cfg1.N) (z : S1x128.Idx) : iblk1 V c 4 t z = V c main_v44 z := by
  obtain ⟨-, -, -, -, -, -, -, -, e0, e1, -⟩ := idx t
  show V c main_v44 (((cfg1.win 4).blk t).view.emb z) = V c main_v44 z
  refine congrArg (V c main_v44) (funext fun a => Fin.ext ?_)
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- What point `t` writes back is block `t` of the layer of the arrays the region finds. -/
theorem flushed (c : Dev nD) (t : Fin cfg1.N) :
    (dat1 V c).flushed 5 t = ((cfg1.win 5).blk t).view.read (Elt Ideal)
      (Cert.Sage.layerK (M := 50000) (V c main_v39) (V c main_v12) (V c main_v28) (V c main_v43) (V c main_v44)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz,
    View.ld_unit_zero (S := S256x128) hz, View.ld_unit_zero (S := S1x128) hz]
  funext y
  refine (congrFun (Pay.pay1_eq (iblk1 V c 0 t) (iblk1 V c 1 t) (iblk1 V c 2 t) (iblk1 V c 3 t) (iblk1 V c 4 t)) y).trans ?_
  obtain ⟨-, -, -, -, -, -, -, -, -, -, e1, -⟩ := idx t
  exact Cert.Sage.layerK_rowBlock (rows_0 V c t) (rows_1 V c t) (rows_2 V c t) (whole_3 V c t) (whole_4 V c t) y
    (((cfg1.win 5).blk t).view.emb y)
    (by show win1_5.index t (0 : Fin 2) * 2000 + 1 * (y 0).val = win1_5.index t (0 : Fin 2) * 2000 + (y 0).val; omega)
    (by show win1_5.index t (1 : Fin 2) * 128 + 1 * (y 1).val = (y 1).val; omega)

/-- An index of the output array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v45).slice (win1_5.rect t)).set ↔ _
  rw [View.set_slice_whole, Rect.mem_set_unit]
  exact Iff.rfl

/-- Every index of the output array is in some point's block: row r is in block r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto ⟨(i 0).val / 2000, by omega⟩
  have q0 : win1_5.index t (0 : Fin 2) = (i 0).val / 2000 := ht
  obtain ⟨-, -, -, -, -, -, -, -, -, -, e1, -⟩ := idx t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the layer of the arrays the region finds. -/
theorem final (c : Dev nD) : (dat1 V c).arrAt 5 cfg1.N
    = Cert.Sage.layerK (M := 50000) (V c main_v39) (V c main_v12) (V c main_v28) (V c main_v43) (V c main_v44) :=
  (dat1 V c).arrAt_eq_of_cover 5 _ (fun t _ => flushed V c t) (cover)

end Cert.KernelIdeal.Reg1

end
-- ==== Proof.Region2.lean ====
/-
  The array the classifier's region leaves, as one function of the arrays it finds.

  The region has one grid point and every window holds its whole array, so the output array ends holding the
  body's function — the classifier in the reciprocal arrangement — of the whole arrays.
-/
import proofs.«152667_j39977555591470_2_alg».proof.Proof.Gen.KernelIdeal.Frame
import proofs.«152667_j39977555591470_2_alg».proof.Proof.Payload

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.PlainDot Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the one-point grid: no window moves. -/
theorem idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 ∧ True :=
  (by decide +kernel : ∀ t : Fin grid2.N, _)

/-- Window 0's block is its whole array. -/
theorem whole_0 (c : Dev nD) (t : Fin cfg2.N) : iblk2 V c 0 t = V c main_v49 := by
  obtain ⟨e0, e1, -⟩ := idx t
  funext z
  show V c main_v49 (((cfg2.win 0).blk t).view.emb z) = V c main_v49 z
  refine congrArg (V c main_v49) (funext fun a => Fin.ext ?_)
  match a with
  | ⟨0, _⟩ => show win2_0.index t (0 : Fin 2) * 128 + 1 * (z 0).val = (z 0).val; omega
  | ⟨1, _⟩ => show win2_0.index t (1 : Fin 2) * 128 + 1 * (z 1).val = (z 1).val; omega

/-- Window 1's block is its whole array. -/
theorem whole_1 (c : Dev nD) (t : Fin cfg2.N) : iblk2 V c 1 t = V c main_v58 := by
  obtain ⟨-, -, e0, e1, -⟩ := idx t
  funext z
  show V c main_v58 (((cfg2.win 1).blk t).view.emb z) = V c main_v58 z
  refine congrArg (V c main_v58) (funext fun a => Fin.ext ?_)
  match a with
  | ⟨0, _⟩ => show win2_1.index t (0 : Fin 2) * 128 + 1 * (z 0).val = (z 0).val; omega
  | ⟨1, _⟩ => show win2_1.index t (1 : Fin 2) * 1 + 1 * (z 1).val = (z 1).val; omega

/-- Window 2's block is its whole array. -/
theorem whole_2 (c : Dev nD) (t : Fin cfg2.N) : iblk2 V c 2 t = V c main_v60 := by
  obtain ⟨-, -, -, -, e0, e1, -⟩ := idx t
  funext z
  show V c main_v60 (((cfg2.win 2).blk t).view.emb z) = V c main_v60 z
  refine congrArg (V c main_v60) (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

/-- Window 3's block is its whole array. -/
theorem whole_3 (c : Dev nD) (t : Fin cfg2.N) : iblk2 V c 3 t = V c main_v61 := by
  obtain ⟨-, -, -, -, -, -, e0, e1, -⟩ := idx t
  funext z
  show V c main_v61 (((cfg2.win 3).blk t).view.emb z) = V c main_v61 z
  refine congrArg (V c main_v61) (funext fun a => Fin.ext ?_)
  match a with
  | ⟨0, _⟩ => show win2_3.index t (0 : Fin 2) * 1 + 1 * (z 0).val = (z 0).val; omega
  | ⟨1, _⟩ => show win2_3.index t (1 : Fin 2) * 128 + 1 * (z 1).val = (z 1).val; omega

/-- What the one point writes back is the classifier of the arrays the region finds, read through the block. -/
theorem flushed (c : Dev nD) (t : Fin cfg2.N) :
    (dat2 V c).flushed 4 t = ((cfg2.win 4).blk t).view.read (Elt Ideal)
      (Cert.Sage.poolK (V c main_v49) (V c main_v58) (V c main_v60) (V c main_v61)) := by
  show (cfg2.win 4).cut (grid2.coords t) ((dat2 V c).after 4 t) = _
  rw [after2_4]
  unfold out2_4
  rw [View.canon_unit_zero hz]
  simp only [View.ld_unit_zero (S := S128x128) hz, View.ld_unit_zero (S := S128x1) hz, View.ld_unit_zero (S := S1x128) hz]
  funext y
  refine (congrFun (Pay.pay2_eq (iblk2 V c 0 t) (iblk2 V c 1 t) (iblk2 V c 2 t) (iblk2 V c 3 t)) y).trans ?_
  obtain ⟨-, -, -, -, -, -, -, -, e0, e1, -⟩ := idx t
  have ey : ((cfg2.win 4).blk t).view.emb y = y := funext fun a => Fin.ext (by
    match a with
    | ⟨0, _⟩ => show win2_4.index t (0 : Fin 2) * 128 + 1 * (y 0).val = (y 0).val; omega
    | ⟨1, _⟩ => show win2_4.index t (1 : Fin 2) * 128 + 1 * (y 1).val = (y 1).val; omega)
  exact (congrFun (congr (congr (congr (congrArg Cert.Sage.poolK (whole_0 V c t)) (whole_1 V c t)) (whole_2 V c t))
    (whole_3 V c t)) y).trans (congrArg (Cert.Sage.poolK (V c main_v49) (V c main_v58) (V c main_v60) (V c main_v61)) ey.symm)

/-- An index of the output array is in the point's block iff each coordinate is in the block's range. -/
theorem mem_blk (t : Fin cfg2.N) (i : S128x128.Idx) :
    i ∈ ((cfg2.win 4).blk t).view.set ↔ ∀ a : Fin 2, win2_4.index t a * S128x128.size a ≤ (i a).val
      ∧ (i a).val < win2_4.index t a * S128x128.size a + S128x128.size a := by
  show i ∈ ((View.whole main_v62).slice (win2_4.rect t)).set ↔ _
  rw [View.set_slice_whole, Rect.mem_set_unit]
  exact Iff.rfl

/-- The one block is the whole output array. -/
theorem cover (i : S128x128.Idx) :
    ∃ t : Fin cfg2.N, (cfg2.win 4).flush t = true ∧ i ∈ ((cfg2.win 4).blk t).view.set := by
  have hi0 : (i 0).val < 128 := (i 0).isLt
  have hi1 : (i 1).val < 128 := (i 1).isLt
  have hN : 0 < grid2.N := by rw [N_2]; decide
  let t : Fin cfg2.N := ⟨0, hN⟩
  obtain ⟨-, -, -, -, -, -, -, -, e0, e1, -⟩ := idx t
  refine ⟨t, flush2_4 t, ?_⟩
  rw [mem_blk]
  intro a
  match a with
  | ⟨0, _⟩ => show win2_4.index t (0 : Fin 2) * 128 ≤ (i 0).val ∧ (i 0).val < win2_4.index t (0 : Fin 2) * 128 + 128; omega
  | ⟨1, _⟩ => show win2_4.index t (1 : Fin 2) * 128 ≤ (i 1).val ∧ (i 1).val < win2_4.index t (1 : Fin 2) * 128 + 128; omega

/-- The output array after the region: the classifier of the arrays the region finds. -/
theorem final (c : Dev nD) : (dat2 V c).arrAt 4 cfg2.N
    = Cert.Sage.poolK (V c main_v49) (V c main_v58) (V c main_v60) (V c main_v61) :=
  (dat2 V c).arrAt_eq_of_cover 4 _ (fun t _ => flushed V c t) (cover)

end Cert.KernelIdeal.Reg2

end
-- ==== Proof.KernelHost.lean ====
/-
  The contents of every buffer a kernel region reads, followed from the launch through the host stretches and the
  regions before it.

  Before the first region the host computes the neighbour sums of the input features, the reciprocals of the
  clamped neighbour counts, the stacked transposed weights and the bias row; between the regions it recomputes the
  neighbour sums from the previous region's output and prepares the next layer's weights; before the last region
  it pools the second layer's output over the graphs, takes the reciprocals of the clamped graph sizes and
  transposes the classifier weights. The data-dependent accumulations are the very terms the textbook program
  has (they are never opened); the layout operations are read at an entry.
  A region leaves its output array at the layer (or the classifier) of the arrays it found, its input arrays and
  every other buffer as they were.
-/
import proofs.«152667_j39977555591470_2_alg».proof.Proof.Gen.KernelIdeal.Frame
import proofs.«152667_j39977555591470_2_alg».proof.Proof.RefValue
import proofs.«152667_j39977555591470_2_alg».proof.Proof.HostReads
import proofs.«152667_j39977555591470_2_alg».proof.Proof.Region0
import proofs.«152667_j39977555591470_2_alg».proof.Proof.Region1
import proofs.«152667_j39977555591470_2_alg».proof.Proof.Region2
import Idealize.ShloMosaic.Lib.StableHlo.Run

set_option maxRecDepth 16384
set_option maxHeartbeats 4000000

noncomputable section

namespace Cert.KernelIdeal.Val

open Idealize.ShloMosaic Idealize.ShloMosaic.TcCoe Idealize.ShloMosaic.ValueIdx Idealize.SL.Sem Idealize.ShloMosaic.StableHlo
open Idealize.ShloMosaic.Pipeline (Dat Cfg Window)
open Cert.PlainDot Cert.Sage Cert.RefValue Cert.KernelIdeal Cert.KernelIdeal.Gen

variable (m : (ℓ : Loc nD τ sig) → Buf (Elt Ideal) ℓ) (ρ : Dev nD → PrngReg)

/-! ## Before the first region -/

theorem s0_v22 (c : Dev nD) : W1 m ρ c (Proc.devRef .tc main_v22) = aggR (m ((c : Thread nD τ).loc main_arg1)) (m ((c : Thread nD τ).loc main_arg0)) := by
  show StableHlo.after hostOps0 (W0 m ρ c) _ = _
  after_results_simp
  rfl

theorem s0_v12_raw (c : Dev nD) : W1 m ρ c (Proc.devRef .tc main_v12)
    = broadcastInDim S50000x1 ![0] bcast_S50000_S50000x1_0
        (Host.divf (F := Ideal) (broadcastInDim S50000 ![] bcast_S_S50000 (constant (F := Ideal) S_ .f32 0x3F800000#32)) (degR (m ((c : Thread nD τ).loc main_arg1)))) := by
  show StableHlo.after hostOps0 (W0 m ρ c) _ = _
  after_results_simp
  rfl

theorem s0_v12 (c : Dev nD) (j : (⟨2, ![50000, 1]⟩ : Shape).Idx) :
    (W1 m ρ c (Proc.devRef .tc main_v12) : (⟨2, ![50000, 1]⟩ : Shape).Idx → EReal) j = Ideal.div oneWord (degR (m ((c : Thread nD τ).loc main_arg1)) (ix1 (j 0))) := by
  rw [s0_v12_raw]
  exact recip_col (M := 50000) (by decide) _ _ _ j

theorem s0_arg0 (c : Dev nD) : W1 m ρ c (Proc.devRef .tc main_arg0) = (m ((c : Thread nD τ).loc main_arg0)) := by
  show StableHlo.after hostOps0 (W0 m ρ c) _ = _
  after_results_simp

theorem s0_v26 (c : Dev nD) : W1 m ρ c (Proc.devRef .tc main_v26) = catRows (tr (m ((c : Thread nD τ).loc main_arg3))) (tr (m ((c : Thread nD τ).loc main_arg5))) := by
  show StableHlo.after hostOps0 (W0 m ρ c) _ = _
  after_results
  show concatenate S256x128 0 [⟨S128x128, transpose S128x128 [1, 0] _ transposes_S128x128_S128x128_1_0⟩,
    ⟨S128x128, transpose S128x128 [1, 0] _ transposes_S128x128_S128x128_1_0⟩] concatenates_S128x128_S128x128_S256x128_d0 = _
  refine (concat_rows _ _ concatenates_S128x128_S128x128_S256x128_d0).trans ?_
  exact congrArg₂ catRows (transpose_eq_tr _ _) (transpose_eq_tr _ _)

theorem s0_v27_raw (c : Dev nD) : W1 m ρ c (Proc.devRef .tc main_v27) = shapeCast S1x128 (m ((c : Thread nD τ).loc main_arg4)) shapeCasts_S128_S1x128 := by
  show StableHlo.after hostOps0 (W0 m ρ c) _ = _
  after_results_simp
  rfl

theorem s0_v27 (c : Dev nD) (j : (⟨2, ![1, 128]⟩ : Shape).Idx) :
    (W1 m ρ c (Proc.devRef .tc main_v27) : (⟨2, ![1, 128]⟩ : Shape).Idx → EReal) j = (m ((c : Thread nD τ).loc main_arg4)) (ix1 (j 1)) := by
  rw [s0_v27_raw]
  exact row_of_vec _ _ j

theorem s0_v1 (c : Dev nD) : W1 m ρ c (Proc.devRef .tc main_v1) = Cert.ReferenceIdeal.Read.val_main_v1 (F := Ideal) (m ((c : Thread nD τ).loc main_arg1)) := by
  show StableHlo.after hostOps0 (W0 m ρ c) _ = _
  after_results_simp
  rfl

theorem s0_v3 (c : Dev nD) : W1 m ρ c (Proc.devRef .tc main_v3) = Cert.ReferenceIdeal.Read.val_main_v3 (F := Ideal) (m ((c : Thread nD τ).loc main_arg1)) := by
  show StableHlo.after hostOps0 (W0 m ρ c) _ = _
  after_results_simp
  rfl

theorem s0_arg2 (c : Dev nD) : W1 m ρ c (Proc.devRef .tc main_arg2) = (m ((c : Thread nD τ).loc main_arg2)) := by
  show StableHlo.after hostOps0 (W0 m ρ c) _ = _
  after_results_simp

theorem s0_arg6 (c : Dev nD) : W1 m ρ c (Proc.devRef .tc main_arg6) = (m ((c : Thread nD τ).loc main_arg6)) := by
  show StableHlo.after hostOps0 (W0 m ρ c) _ = _
  after_results_simp

theorem s0_arg7 (c : Dev nD) : W1 m ρ c (Proc.devRef .tc main_arg7) = (m ((c : Thread nD τ).loc main_arg7)) := by
  show StableHlo.after hostOps0 (W0 m ρ c) _ = _
  after_results_simp

theorem s0_arg8 (c : Dev nD) : W1 m ρ c (Proc.devRef .tc main_arg8) = (m ((c : Thread nD τ).loc main_arg8)) := by
  show StableHlo.after hostOps0 (W0 m ρ c) _ = _
  after_results_simp

theorem s0_arg9 (c : Dev nD) : W1 m ρ c (Proc.devRef .tc main_arg9) = (m ((c : Thread nD τ).loc main_arg9)) := by
  show StableHlo.after hostOps0 (W0 m ρ c) _ = _
  after_results_simp

theorem s0_arg10 (c : Dev nD) : W1 m ρ c (Proc.devRef .tc main_arg10) = (m ((c : Thread nD τ).loc main_arg10)) := by
  show StableHlo.after hostOps0 (W0 m ρ c) _ = _
  after_results_simp

/-! ## The first region -/

theorem w2_v28 (c : Dev nD) : W2 m ρ c (Proc.devRef .tc main_v28)
    = layerK (M := 50000) (W1 m ρ c (Proc.devRef .tc main_v22)) (W1 m ρ c (Proc.devRef .tc main_v12)) (W1 m ρ c (Proc.devRef .tc main_arg0))
        (W1 m ρ c (Proc.devRef .tc main_v26)) (W1 m ρ c (Proc.devRef .tc main_v27)) :=
  (W2_arr m ρ c 5).trans (Reg0.final (V1 m ρ) c)

theorem w2_v12 (c : Dev nD) : W2 m ρ c (Proc.devRef .tc main_v12) = W1 m ρ c (Proc.devRef .tc main_v12) :=
  (W2_arr m ρ c 1).trans (((dat0 (V1 m ρ) c).arrAt_in 1 rfl _).trans (A_eq0 (V1 m ρ) c 1))

theorem w2_v1 (c : Dev nD) : W2 m ρ c (Proc.devRef .tc main_v1) = W1 m ρ c (Proc.devRef .tc main_v1) := W2_of_ne m ρ c main_v1 (by decide)
theorem w2_v3 (c : Dev nD) : W2 m ρ c (Proc.devRef .tc main_v3) = W1 m ρ c (Proc.devRef .tc main_v3) := W2_of_ne m ρ c main_v3 (by decide)
theorem w2_arg2 (c : Dev nD) : W2 m ρ c (Proc.devRef .tc main_arg2) = W1 m ρ c (Proc.devRef .tc main_arg2) := W2_of_ne m ρ c main_arg2 (by decide)
theorem w2_arg6 (c : Dev nD) : W2 m ρ c (Proc.devRef .tc main_arg6) = W1 m ρ c (Proc.devRef .tc main_arg6) := W2_of_ne m ρ c main_arg6 (by decide)
theorem w2_arg7 (c : Dev nD) : W2 m ρ c (Proc.devRef .tc main_arg7) = W1 m ρ c (Proc.devRef .tc main_arg7) := W2_of_ne m ρ c main_arg7 (by decide)
theorem w2_arg8 (c : Dev nD) : W2 m ρ c (Proc.devRef .tc main_arg8) = W1 m ρ c (Proc.devRef .tc main_arg8) := W2_of_ne m ρ c main_arg8 (by decide)
theorem w2_arg9 (c : Dev nD) : W2 m ρ c (Proc.devRef .tc main_arg9) = W1 m ρ c (Proc.devRef .tc main_arg9) := W2_of_ne m ρ c main_arg9 (by decide)
theorem w2_arg10 (c : Dev nD) : W2 m ρ c (Proc.devRef .tc main_arg10) = W1 m ρ c (Proc.devRef .tc main_arg10) := W2_of_ne m ρ c main_arg10 (by decide)

/-! ## Between the first and the second region -/

theorem s1_v39 (c : Dev nD) : W3 m ρ c (Proc.devRef .tc main_v39) = aggR (m ((c : Thread nD τ).loc main_arg1)) (W2 m ρ c (Proc.devRef .tc main_v28)) := by
  show StableHlo.after hostOps1 (W2 m ρ c) _ = _
  after_results_simp
  rw [w2_v1, w2_v3, s0_v1, s0_v3]
  rfl

theorem s1_v12 (c : Dev nD) : W3 m ρ c (Proc.devRef .tc main_v12) = W2 m ρ c (Proc.devRef .tc main_v12) := by
  show StableHlo.after hostOps1 (W2 m ρ c) _ = _
  after_results_simp

theorem s1_v28 (c : Dev nD) : W3 m ρ c (Proc.devRef .tc main_v28) = W2 m ρ c (Proc.devRef .tc main_v28) := by
  show StableHlo.after hostOps1 (W2 m ρ c) _ = _
  after_results_simp

theorem s1_v43 (c : Dev nD) : W3 m ρ c (Proc.devRef .tc main_v43) = catRows (tr (m ((c : Thread nD τ).loc main_arg6))) (tr (m ((c : Thread nD τ).loc main_arg8))) := by
  show StableHlo.after hostOps1 (W2 m ρ c) _ = _
  after_results
  rw [w2_arg6, w2_arg8, s0_arg6, s0_arg8]
  show concatenate S256x128 0 [⟨S128x128, transpose S128x128 [1, 0] _ transposes_S128x128_S128x128_1_0⟩,
    ⟨S128x128, transpose S128x128 [1, 0] _ transposes_S128x128_S128x128_1_0⟩] concatenates_S128x128_S128x128_S256x128_d0 = _
  refine (concat_rows _ _ concatenates_S128x128_S128x128_S256x128_d0).trans ?_
  exact congrArg₂ catRows (transpose_eq_tr _ _) (transpose_eq_tr _ _)

theorem s1_v44_raw (c : Dev nD) : W3 m ρ c (Proc.devRef .tc main_v44) = shapeCast S1x128 (m ((c : Thread nD τ).loc main_arg7)) shapeCasts_S128_S1x128 := by
  show StableHlo.after hostOps1 (W2 m ρ c) _ = _
  after_results_simp
  rw [w2_arg7, s0_arg7]
  rfl

theorem s1_v44 (c : Dev nD) (j : (⟨2, ![1, 128]⟩ : Shape).Idx) :
    (W3 m ρ c (Proc.devRef .tc main_v44) : (⟨2, ![1, 128]⟩ : Shape).Idx → EReal) j = (m ((c : Thread nD τ).loc main_arg7)) (ix1 (j 1)) := by
  rw [s1_v44_raw]
  exact row_of_vec _ _ j

theorem s1_arg2 (c : Dev nD) : W3 m ρ c (Proc.devRef .tc main_arg2) = (m ((c : Thread nD τ).loc main_arg2)) := by
  show StableHlo.after hostOps1 (W2 m ρ c) _ = _
  after_results_simp
  rw [w2_arg2, s0_arg2]

theorem s1_arg9 (c : Dev nD) : W3 m ρ c (Proc.devRef .tc main_arg9) = (m ((c : Thread nD τ).loc main_arg9)) := by
  show StableHlo.after hostOps1 (W2 m ρ c) _ = _
  after_results_simp
  rw [w2_arg9, s0_arg9]

theorem s1_arg10 (c : Dev nD) : W3 m ρ c (Proc.devRef .tc main_arg10) = (m ((c : Thread nD τ).loc main_arg10)) := by
  show StableHlo.after hostOps1 (W2 m ρ c) _ = _
  after_results_simp
  rw [w2_arg10, s0_arg10]

/-! ## The second region -/

theorem w4_v45 (c : Dev nD) : W4 m ρ c (Proc.devRef .tc main_v45)
    = layerK (M := 50000) (W3 m ρ c (Proc.devRef .tc main_v39)) (W3 m ρ c (Proc.devRef .tc main_v12)) (W3 m ρ c (Proc.devRef .tc main_v28))
        (W3 m ρ c (Proc.devRef .tc main_v43)) (W3 m ρ c (Proc.devRef .tc main_v44)) :=
  (W4_arr m ρ c 5).trans (Reg1.final (V3 m ρ) c)

theorem w4_arg2 (c : Dev nD) : W4 m ρ c (Proc.devRef .tc main_arg2) = (m ((c : Thread nD τ).loc main_arg2)) :=
  (W4_of_ne m ρ c main_arg2 (by decide)).trans (s1_arg2 m ρ c)
theorem w4_arg9 (c : Dev nD) : W4 m ρ c (Proc.devRef .tc main_arg9) = (m ((c : Thread nD τ).loc main_arg9)) :=
  (W4_of_ne m ρ c main_arg9 (by decide)).trans (s1_arg9 m ρ c)
theorem w4_arg10 (c : Dev nD) : W4 m ρ c (Proc.devRef .tc main_arg10) = (m ((c : Thread nD τ).loc main_arg10)) :=
  (W4_of_ne m ρ c main_arg10 (by decide)).trans (s1_arg10 m ρ c)

/-! ## Before the last region -/

theorem s2_v49 (c : Dev nD) : W5 m ρ c (Proc.devRef .tc main_v49) = gsumR (m ((c : Thread nD τ).loc main_arg2)) (W4 m ρ c (Proc.devRef .tc main_v45)) := by
  show StableHlo.after hostOps2 (W4 m ρ c) _ = _
  after_results_simp
  rw [w4_arg2]
  rfl

theorem s2_v58_raw (c : Dev nD) : W5 m ρ c (Proc.devRef .tc main_v58)
    = Host.divf (F := Ideal) (broadcastInDim S128x1 ![] bcast_S_S128x1 (constant (F := Ideal) S_ .f32 0x3F800000#32))
        (maximumf (F := Ideal) (broadcastInDim S128x1 ![0] bcast_S128_S128x1_0 (Cert.ReferenceIdeal.Read.val_main_v66 (F := Ideal) (m ((c : Thread nD τ).loc main_arg2))))
          (broadcastInDim S128x1 ![] bcast_S_S128x1 (constant (F := Ideal) S_ .f32 0x3F800000#32))) := by
  show StableHlo.after hostOps2 (W4 m ρ c) _ = _
  after_results_simp
  rw [w4_arg2]
  rfl

/-- The clamped graph sizes at an entry. -/
theorem gcnt_apply (bt : (⟨Cert.ReferenceIdeal.S50000, .i32⟩ : BufTy).Contents (Elt Ideal)) (r : Cert.ReferenceIdeal.S128.Idx) :
    gcntR bt r = max (Cert.ReferenceIdeal.Read.val_main_v66 (F := Ideal) bt r) oneWord := by
  unfold gcntR
  rw [Cert.ReferenceIdeal.Read.val_main_v68_apply, Cert.ReferenceIdeal.Read.val_main_v67_apply,
    Cert.ReferenceIdeal.Read.val_main_cst_13_apply, Ideal.maximumf_def, Ideal.ofBits_def]

theorem s2_v58 (c : Dev nD) (j : (⟨2, ![128, 1]⟩ : Shape).Idx) :
    (W5 m ρ c (Proc.devRef .tc main_v58) : (⟨2, ![128, 1]⟩ : Shape).Idx → EReal) j = Ideal.div oneWord (gcntR (m ((c : Thread nD τ).loc main_arg2)) (ix1 (j 0))) := by
  rw [s2_v58_raw, gcnt_apply]
  exact recip_col_max (M := 128) (by decide) _ _ _ j

theorem s2_v60 (c : Dev nD) : W5 m ρ c (Proc.devRef .tc main_v60) = tr (m ((c : Thread nD τ).loc main_arg9)) := by
  show StableHlo.after hostOps2 (W4 m ρ c) _ = _
  after_results_simp
  rw [w4_arg9]
  exact transpose_eq_tr _ _

theorem s2_v61_raw (c : Dev nD) : W5 m ρ c (Proc.devRef .tc main_v61) = shapeCast S1x128 (m ((c : Thread nD τ).loc main_arg10)) shapeCasts_S128_S1x128 := by
  show StableHlo.after hostOps2 (W4 m ρ c) _ = _
  after_results_simp
  rw [w4_arg10]
  rfl

theorem s2_v61 (c : Dev nD) (j : (⟨2, ![1, 128]⟩ : Shape).Idx) :
    (W5 m ρ c (Proc.devRef .tc main_v61) : (⟨2, ![1, 128]⟩ : Shape).Idx → EReal) j = (m ((c : Thread nD τ).loc main_arg10)) (ix1 (j 1)) := by
  rw [s2_v61_raw]
  exact row_of_vec _ _ j

/-! ## The last region -/

theorem w6_v62 (c : Dev nD) : W6 m ρ c (Proc.devRef .tc main_v62)
    = poolK (W5 m ρ c (Proc.devRef .tc main_v49)) (W5 m ρ c (Proc.devRef .tc main_v58)) (W5 m ρ c (Proc.devRef .tc main_v60)) (W5 m ρ c (Proc.devRef .tc main_v61)) :=
  (W6_arr m ρ c 4).trans (Reg2.final (V5 m ρ) c)

end Cert.KernelIdeal.Val

end
-- ==== Proof.KernelValue.lean ====
/-
  The idealized kernel program's result as a closed expression of its arguments: the same expression the textbook
  program computes.

  Each of the two layer regions leaves the layer, in the side-by-side arrangement, of the neighbour sums, the
  reciprocal counts, the layer's input, the stacked transposed weights and the bias row; the counts are at least one,
  so by the law joining the two arrangements this is the layer in the textbook arrangement. The second layer's
  neighbour sums are taken of the first layer's output. The last region leaves the classifier of the pooled sums in
  the reciprocal arrangement, which is the textbook classifier for the same reason.
-/
import proofs.«152667_j39977555591470_2_alg».proof.Proof.KernelHost

set_option maxRecDepth 16384

noncomputable section

namespace Cert.KernelIdeal.Val

open Idealize.ShloMosaic Idealize.ShloMosaic.TcCoe Idealize.ShloMosaic.ValueIdx Idealize.SL.Sem
open Cert.PlainDot Cert.Sage Cert.RefValue Cert.KernelIdeal Cert.KernelIdeal.Gen

variable (m : (ℓ : Loc nD τ sig) → Buf (Elt Ideal) ℓ) (ρ : Dev nD → PrngReg)

/-- After the first region its output array holds the first layer of the input features. -/
theorem layer1 (c : Dev nD) : W2 m ρ c (Proc.devRef .tc main_v28) = (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))) := by
  rw [w2_v28, s0_v22, s0_arg0, s0_v26]
  exact layerK_eq_layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))
    (W1 m ρ c (Proc.devRef .tc main_v12)) _ (W1 m ρ c (Proc.devRef .tc main_v27))
    (degR_ne_zero (m ((c : Thread nD τ).loc main_arg1))) (s0_v12 m ρ c) rfl (s0_v27 m ρ c)

/-- After the second region its output array holds the second layer of the first layer's output. -/
theorem layer2 (c : Dev nD) : W4 m ρ c (Proc.devRef .tc main_v45) = (layerR (aggR (m ((c : Thread nD τ).loc main_arg1)) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5)))) (degR (m ((c : Thread nD τ).loc main_arg1))) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) := by
  rw [w4_v45, s1_v39, s1_v28, s1_v43, layer1]
  exact layerK_eq_layerR (aggR (m ((c : Thread nD τ).loc main_arg1)) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5)))) (degR (m ((c : Thread nD τ).loc main_arg1))) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))
    (W3 m ρ c (Proc.devRef .tc main_v12)) _ (W3 m ρ c (Proc.devRef .tc main_v44))
    (degR_ne_zero (m ((c : Thread nD τ).loc main_arg1))) (fun j => by rw [s1_v12, w2_v12]; exact s0_v12 m ρ c j) rfl (s1_v44 m ρ c)

/-- After the last region the result array holds the classifier of the pooled second layer. -/
theorem result (c : Dev nD) : W6 m ρ c (Proc.devRef .tc main_v62)
    = poolR (gsumR (m ((c : Thread nD τ).loc main_arg2)) (layerR (aggR (m ((c : Thread nD τ).loc main_arg1)) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5)))) (degR (m ((c : Thread nD τ).loc main_arg1))) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)))) (gcntR (m ((c : Thread nD τ).loc main_arg2))) (m ((c : Thread nD τ).loc main_arg9)) (m ((c : Thread nD τ).loc main_arg10)) := by
  rw [w6_v62, s2_v49, s2_v60, layer2]
  exact poolK_eq_poolR (gsumR (m ((c : Thread nD τ).loc main_arg2)) (layerR (aggR (m ((c : Thread nD τ).loc main_arg1)) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5)))) (degR (m ((c : Thread nD τ).loc main_arg1))) (layerR (aggR (m ((c : Thread nD τ).loc main_arg1)) (m ((c : Thread nD τ).loc main_arg0))) (degR (m ((c : Thread nD τ).loc main_arg1))) (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)))) (gcntR (m ((c : Thread nD τ).loc main_arg2))) (m ((c : Thread nD τ).loc main_arg9)) (m ((c : Thread nD τ).loc main_arg10))
    (W5 m ρ c (Proc.devRef .tc main_v58)) _ (W5 m ρ c (Proc.devRef .tc main_v61))
    (gcntR_ne_zero (m ((c : Thread nD τ).loc main_arg2))) (s2_v58 m ρ c) rfl (s2_v61 m ρ c)

end Cert.KernelIdeal.Val

end
-- ==== Proof.lean ====
/-
  A two-layer mean-aggregation graph network (neighbour sums divided by clamped neighbour counts, two linear maps,
  a bias and a clamp at zero per layer), a mean pool over graphs and a linear classifier: the kernel program and the
  textbook program compute the same [128, 128] array on the extended reals.

  The kernel program runs three kernel regions among host operations. Each layer region computes, 2000 rows at a
  time, max([agg · (1/deg) | root] · [wlᵀ ; wrᵀ] + b, 0): the neighbour sums scaled by reciprocal counts beside the
  layer's input, times the two transposed weight matrices stacked, plus the bias row. The textbook program computes
  max((agg / deg) · wlᵀ + b + root · wrᵀ, 0). The two agree because a sum over 256 = 128 + 128 products is the sum of
  the two sums over 128, a quotient by a nonzero extended real is the product with its reciprocal (the counts are
  clamped below at one), and addition of extended reals is commutative and associative; no input has to be finite
  for that, so the precondition is not used. The last region computes (gsum · (1/gcnt)) · cwᵀ + cb against the
  textbook (gsum / gcnt) · cwᵀ + cb. Changes of float format are the identity on the extended reals. The gathers and
  scatter-additions along the edges and over the graphs are the same terms in both programs and are never opened.

  The modules: Spec (the two arrangements and the law), Payload (each body's arithmetic), Blocks and Region0 … Region2
  (each region's output array as one function of the arrays it finds), HostReads and KernelHost (the host stretches),
  KernelRun and KernelValue (the kernel program's result), RefIdx and RefValue (the textbook program's result).
-/
import proofs.«152667_j39977555591470_2_alg».proof.Defs
import proofs.«152667_j39977555591470_2_alg».proof.Proof.Gen.Kernel
import proofs.«152667_j39977555591470_2_alg».proof.Proof.Gen.Kernel.Skeleton
import proofs.«152667_j39977555591470_2_alg».proof.Proof.Gen.Kernel.Launch
import proofs.«152667_j39977555591470_2_alg».proof.Proof.Gen.Kernel.Points
import proofs.«152667_j39977555591470_2_alg».proof.Proof.Gen.Kernel.Frame
import proofs.«152667_j39977555591470_2_alg».proof.Proof.Gen.KernelIdeal
import proofs.«152667_j39977555591470_2_alg».proof.Proof.Gen.KernelIdeal.Skeleton
import proofs.«152667_j39977555591470_2_alg».proof.Proof.Gen.KernelIdeal.Launch
import proofs.«152667_j39977555591470_2_alg».proof.Proof.Gen.KernelIdeal.Points
import proofs.«152667_j39977555591470_2_alg».proof.Proof.Gen.KernelIdeal.Frame
import proofs.«152667_j39977555591470_2_alg».proof.Proof.Gen.ReferenceIdeal
import proofs.«152667_j39977555591470_2_alg».proof.Proof.Gen.Pre_finite_inputs
import proofs.«152667_j39977555591470_2_alg».proof.Proof.Gen.ReferenceIdeal.Run
import proofs.«152667_j39977555591470_2_alg».proof.Proof.Gen.ReferenceIdeal.Read
import proofs.«152667_j39977555591470_2_alg».proof.Proof.KernelRun
import proofs.«152667_j39977555591470_2_alg».proof.Proof.KernelValue
import proofs.«152667_j39977555591470_2_alg».proof.Proof.RefValue
import Idealize.ShloMosaic.Adequacy
import Idealize.ShloMosaic.Init

noncomputable section

namespace Cert.Proof

open Idealize.ShloMosaic Idealize.ShloMosaic.TcCoe Idealize.SL.Sem Cert.Sage Cert.RefValue

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The textbook program runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the classifier of the pooled second layer of the arguments. -/
theorem algebraic : Cert.algebraic_KernelIdeal_ReferenceIdeal := by
  intro m ρ m' ρ' _ hagree
  refine ⟨fun c => poolR (gsumR (m ((c.tc : Thread Cert.KernelIdeal.nD Cert.KernelIdeal.τ).loc Cert.KernelIdeal.main_arg2)) (layerR (aggR (m ((c.tc : Thread Cert.KernelIdeal.nD Cert.KernelIdeal.τ).loc Cert.KernelIdeal.main_arg1)) (layerR (aggR (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (degR (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))) (degR (m ((c.tc : Thread Cert.KernelIdeal.nD Cert.KernelIdeal.τ).loc Cert.KernelIdeal.main_arg1))) (layerR (aggR (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (degR (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))) (gcntR (m ((c.tc : Thread Cert.KernelIdeal.nD Cert.KernelIdeal.τ).loc Cert.KernelIdeal.main_arg2))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Val.result m ρ c), (h c).2⟩)
      (Cert.KernelIdeal.Out.run_out (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v76_eq, Cert.RefValue.ref_result, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
